-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S50x64 : Shape := ⟨2, ![50, 64]⟩
abbrev S64x96 : Shape := ⟨2, ![64, 96]⟩
abbrev S96 : Shape := ⟨1, ![96]⟩
abbrev S96x96 : Shape := ⟨2, ![96, 96]⟩
abbrev S96x50 : Shape := ⟨2, ![96, 50]⟩
abbrev S50 : Shape := ⟨1, ![50]⟩
abbrev S_ : Shape := ⟨0, ![]⟩

class Facts : Prop where
  bcast_S_S50x64 : S_.BroadcastsInDim S50x64 (![] : Fin 0 → Fin S50x64.rank)
  reducesTo_S50x64_S_d0_1 : S50x64.ReducesTo [0, 1] S_
  h_S_ : 0 < S_.numel
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x50 : S_.BroadcastsInDim S96x50 (![] : Fin 0 → Fin S96x50.rank)
  reducesTo_S96x50_S_d0_1 : S96x50.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_arg7 : FVec F S96 .f32) (main_arg8 : FVec F S96x50 .f32) (main_arg9 : FVec F S50 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg7
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x50 .f32 := Host.absf main_arg8
  let main_cst_8 : FVec F S_ .f32 := constant S_ .f32 0x7F800000#32
  let main_v25 : FVec F S96x50 .f32 := broadcastInDim S96x50 ![] bcast_S_S96x50 main_cst_8
  let main_v26 : IVec S96x50 1 := cmpf .olt main_v24 main_v25
  let main_c_9 : IVec S_ 1 := constantI S_ 1 1#1
  let main_v27 : IVec S_ 1 := (fun x v => Host.reduce IntOp.andi x v reducesTo_S96x50_S_d0_1 h_S_) main_v26 main_c_9
  let main_v28 : IVec S_ 1 := andi main_v23 main_v27
  let main_v29 : FVec F S50 .f32 := Host.absf main_arg9
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  main_v33

def fn {F : FTy → Type} [FloatOps F] (main_arg0 : IVec S50000 32) (main_arg1 : IVec S800000 32) (main_arg2 : IVec S800000 32) (main_arg3 : FVec F S50x64 .f32) (main_arg4 : FVec F S64x96 .f32) (main_arg5 : FVec F S96 .f32) (main_arg6 : FVec F S96x96 .f32) (main_arg7 : FVec F S96 .f32) (main_arg8 : FVec F S96x50 .f32) (main_arg9 : FVec F S50 .f32) : IVec S_ 1 :=
  let main_v0 : FVec F S50x64 .f32 := Host.absf main_arg3
  let main_cst : FVec F S_ .f32 := constant S_ .f32 0x7F800000#32
  let main_v1 : FVec F S50x64 .f32 := broadcastInDim S50x64 ![] bcast_S_S50x64 main_cst
  let main_v2 : IVec S50x64 1 := cmpf .olt main_v0 main_v1
  let main_c : IVec S_ 1 := constantI S_ 1 1#1
  let main_v3 : IVec S_ 1 := (fun x v => Host.reduce IntOp.andi x v reducesTo_S50x64_S_d0_1 h_S_) main_v2 main_c
  let main_v4 : FVec F S64x96 .f32 := Host.absf main_arg4
  let main_cst_0 : FVec F S_ .f32 := constant S_ .f32 0x7F800000#32
  let main_v5 : FVec F S64x96 .f32 := broadcastInDim S64x96 ![] bcast_S_S64x96 main_cst_0
  let main_v6 : IVec S64x96 1 := cmpf .olt main_v4 main_v5
  let main_c_1 : IVec S_ 1 := constantI S_ 1 1#1
  let main_v7 : IVec S_ 1 := (fun x v => Host.reduce IntOp.andi x v reducesTo_S64x96_S_d0_1 h_S_) main_v6 main_c_1
  let main_v8 : IVec S_ 1 := andi main_v3 main_v7
  let main_v9 : FVec F S96 .f32 := Host.absf main_arg5
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg6
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg7 main_arg8 main_arg9 main_v13 main_v16
-- ==== Kernel.lean ====
abbrev S50000 : Shape := ⟨1, ![50000]⟩
abbrev S800000 : Shape := ⟨1, ![800000]⟩
abbrev S50x64 : Shape := ⟨2, ![50, 64]⟩
abbrev S64x96 : Shape := ⟨2, ![64, 96]⟩
abbrev S96 : Shape := ⟨1, ![96]⟩
abbrev S96x96 : Shape := ⟨2, ![96, 96]⟩
abbrev S96x50 : Shape := ⟨2, ![96, 50]⟩
abbrev S50 : Shape := ⟨1, ![50]⟩
abbrev S_ : Shape := ⟨0, ![]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x96 : Shape := ⟨2, ![1, 96]⟩
abbrev S50000x96 : Shape := ⟨2, ![50000, 96]⟩
abbrev S2000x64 : Shape := ⟨2, ![2000, 64]⟩
abbrev S2000x1 : Shape := ⟨2, ![2000, 1]⟩
abbrev S2000x96 : Shape := ⟨2, ![2000, 96]⟩
abbrev S800000x96 : Shape := ⟨2, ![800000, 96]⟩
abbrev S1x50 : Shape := ⟨2, ![1, 50]⟩
abbrev S50000x50 : Shape := ⟨2, ![50000, 50]⟩
abbrev S2000x50 : Shape := ⟨2, ![2000, 50]⟩

abbrev nBuf : Space → Nat
  | .hbm => 86
  | .vmem => 30
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S50x64, .f32⟩
  | .hbm, ⟨4, _⟩ => ⟨S64x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x50, .f32⟩
  | .hbm, ⟨9, _⟩ => ⟨S50, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x1, .f32⟩
  | .hbm, ⟨30, _⟩ => ⟨S_, .i32⟩
  | .hbm, ⟨31, _⟩ => ⟨S50000, .i32⟩
  | .hbm, ⟨32, _⟩ => ⟨S50000, .i1⟩
  | .hbm, ⟨33, _⟩ => ⟨S_, .i32⟩
  | .hbm, ⟨34, _⟩ => ⟨S50000, .i32⟩
  | .hbm, ⟨35, _⟩ => ⟨S50000, .i32⟩
  | .hbm, ⟨36, _⟩ => ⟨S50000, .i32⟩
  | .hbm, ⟨37, _⟩ => ⟨S50000x1, .i32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S1x96, .f32⟩
  | .hbm, ⟨55, _⟩ => ⟨S50000x96, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x96, .f32⟩
  | .hbm, ⟨65, _⟩ => ⟨S_, .f32⟩
  | .hbm, ⟨66, _⟩ => ⟨S50000x96, .f32⟩
  | .hbm, ⟨67, _⟩ => ⟨S800000x1, .i32⟩
  | .hbm, ⟨68, _⟩ => ⟨S50000x96, .f32⟩
  | .hbm, ⟨69, _⟩ => ⟨S1x96, .f32⟩
  | .hbm, ⟨70, _⟩ => ⟨S50000x96, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x96, .f32⟩
  | .hbm, ⟨80, _⟩ => ⟨S_, .f32⟩
  | .hbm, ⟨81, _⟩ => ⟨S50000x96, .f32⟩
  | .hbm, ⟨82, _⟩ => ⟨S800000x1, .i32⟩
  | .hbm, ⟨83, _⟩ => ⟨S50000x96, .f32⟩
  | .hbm, ⟨84, _⟩ => ⟨S1x50, .f32⟩
  | .hbm, ⟨85, _⟩ => ⟨S50000x50, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S64x96, .f32⟩
  | .local _ .vmem, ⟨7, _⟩ => ⟨S1x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S96x96, .f32⟩
  | .local _ .vmem, ⟨17, _⟩ => ⟨S1x96, .f32⟩
  | .local _ .vmem, ⟨18, _⟩ => ⟨S2000x96, .f32⟩
  | .local _ .vmem, ⟨19, _⟩ => ⟨S2000x96, .f32⟩
  | .local _ .vmem, ⟨20, _⟩ => ⟨S2000x96, .f32⟩
  | .local _ .vmem, ⟨21, _⟩ => ⟨S2000x96, .f32⟩
  | .local _ .vmem, ⟨22, _⟩ => ⟨S2000x1, .f32⟩
  | .local _ .vmem, ⟨23, _⟩ => ⟨S2000x1, .f32⟩
  | .local _ .vmem, ⟨24, _⟩ => ⟨S2000x1, .f32⟩
  | .local _ .vmem, ⟨25, _⟩ => ⟨S2000x1, .f32⟩
  | .local _ .vmem, ⟨26, _⟩ => ⟨S96x50, .f32⟩
  | .local _ .vmem, ⟨27, _⟩ => ⟨S1x50, .f32⟩
  | .local _ .vmem, ⟨28, _⟩ => ⟨S2000x50, .f32⟩
  | .local _ .vmem, ⟨29, _⟩ => ⟨S2000x50, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S96x50 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x50 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x50 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S96_S1x96 : S96.ShapeCasts S1x96
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  broadcasts_S2000x1_S2000x96 : S2000x1.Broadcasts S2000x96
  inb_S2000x96_S2000x96_0_0 : ∀ a, (![0, 0] : Fin 2 → Nat) a + S2000x96.size a ≤ S2000x96.size a
  h_S2000x96 : 0 < S2000x96.numel
  bcast_S_S50000x96 : S_.BroadcastsInDim S50000x96 (![] : Fin 0 → Fin S50000x96.rank)
  shapeCasts_S2000x96_S2000x96 : S2000x96.ShapeCasts S2000x96
  inb_S96x96_S96x96_0_0 : ∀ a, (![0, 0] : Fin 2 → Nat) a + S96x96.size a ≤ S96x96.size a
  h_S96x96 : 0 < S96x96.numel
  shapeCasts_S50_S1x50 : S50.ShapeCasts S1x50
  inb_S96x50_S96x50_0_0 : ∀ a, (![0, 0] : Fin 2 → Nat) a + S96x50.size a ≤ S96x50.size a
  h_S96x50 : 0 < S96x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S2000x50 : S1x50.Broadcasts S2000x50
  inb_S2000x50_S2000x50_0_0 : ∀ a, (![0, 0] : Fin 2 → Nat) a + S2000x50.size a ≤ S2000x50.size a
  h_S2000x50 : 0 < S2000x50.numel
  scatter_S50000_S800000x1_S800000_n_0_0_1_wf : ScatterDims.WF S50000 S800000x1 S800000 [] [0] [0] 1
  gather_S50x64_S50000x1_S50000x64_1_0_n_n_0_1_164_wf : GatherDims.WF S50x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x96_S2000x96_1_0_0_1_n_n_wf : DotDims.WF S2000x64 S64x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x96_S2000x96_1_0_0_1_n_n_wf : DotDims.WF S2000x96 S96x96 S2000x96 [1] [0] [0] [1] [] []
  dot_S2000x96_S96x50_S2000x50_1_0_0_1_n_n_wf : DotDims.WF S2000x96 S96x50 S2000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x96.size a ≤ S64x96.size a
  hwx0_3 : ∀ i : grid0.Coords, EltTy.bits .f32 = 32 ∨ (Rect.block (s := S64x96) S64x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x96.size a ≤ S50000x96.size a
  hwx0_5 : ∀ i : grid0.Coords, EltTy.bits .f32 = 32 ∨ (Rect.block (s := S50000x96) S2000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x96.size a ≤ S50000x96.size a
  hwx1_5 : ∀ i : grid1.Coords, EltTy.bits .f32 = 32 ∨ (Rect.block (s := S50000x96) S2000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x50.size a ≤ S96x50.size a
  hwx2_3 : ∀ i : grid2.Coords, EltTy.bits .f32 = 32 ∨ (Rect.block (s := S96x50) S96x50.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x50.size a ≤ S1x50.size a
  hwx2_4 : ∀ i : grid2.Coords, EltTy.bits .f32 = 32 ∨ (Rect.block (s := S1x50) S1x50.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x50.size a ≤ S50000x50.size a
  hwx2_5 : ∀ i : grid2.Coords, EltTy.bits .f32 = 32 ∨ (Rect.block (s := S50000x50) S2000x50.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50x64_S50000x1_S50000x64_1_0_n_n_0_1_164 : GatherDims S50x64 S50000x1 S50000x64 where
  offsetDims := [1]
  collapsedSliceDims := [0]
  operandBatchingDims := []
  startIndicesBatchingDims := []
  startIndexMap := [0]
  indexVectorDim := 1
  sliceSizes := ![1, 64]
  wf := gather_S50x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x96_S2000x96_1_0_0_1_n_n : DotDims S2000x64 S64x96 S2000x96 where
  lhsContracting := [1]
  rhsContracting := [0]
  lhsNonContracting := [0]
  rhsNonContracting := [1]
  lhsBatch := []
  rhsBatch := []
  wf := dot_S2000x64_S64x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def dot_S2000x96_S96x50_S2000x50_1_0_0_1_n_n : DotDims S2000x96 S96x50 S2000x50 where
  lhsContracting := [1]
  rhsContracting := [0]
  lhsNonContracting := [0]
  rhsNonContracting := [1]
  lhsBatch := []
  rhsBatch := []
  wf := dot_S2000x96_S96x50_S2000x50_1_0_0_1_n_n_wf

abbrev win0_0 : Pipeline.Window sig grid0 :=
  Pipeline.Window.ofSpec (Memref.whole main_v33) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S2000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S96x50.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x50.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S2000x50.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000 : Shape := ⟨1, ![50000]⟩
abbrev S800000 : Shape := ⟨1, ![800000]⟩
abbrev S50x64 : Shape := ⟨2, ![50, 64]⟩
abbrev S64x96 : Shape := ⟨2, ![64, 96]⟩
abbrev S96 : Shape := ⟨1, ![96]⟩
abbrev S96x96 : Shape := ⟨2, ![96, 96]⟩
abbrev S96x50 : Shape := ⟨2, ![96, 50]⟩
abbrev S50 : Shape := ⟨1, ![50]⟩
abbrev S_ : Shape := ⟨0, ![]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S50000x96 : Shape := ⟨2, ![50000, 96]⟩
abbrev S1x96 : Shape := ⟨2, ![1, 96]⟩
abbrev S800000x96 : Shape := ⟨2, ![800000, 96]⟩
abbrev S50000x50 : Shape := ⟨2, ![50000, 50]⟩
abbrev S1x50 : Shape := ⟨2, ![1, 50]⟩

abbrev nBuf : Space → Nat
  | .hbm => 112
  | .vmem => 0
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S50x64, .f32⟩
  | .hbm, ⟨4, _⟩ => ⟨S64x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x50, .f32⟩
  | .hbm, ⟨9, _⟩ => ⟨S50, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S50000, .i32⟩
  | .hbm, ⟨30, _⟩ => ⟨S50000, .i1⟩
  | .hbm, ⟨31, _⟩ => ⟨S_, .i32⟩
  | .hbm, ⟨32, _⟩ => ⟨S50000, .i32⟩
  | .hbm, ⟨33, _⟩ => ⟨S50000, .i32⟩
  | .hbm, ⟨34, _⟩ => ⟨S50000, .i32⟩
  | .hbm, ⟨35, _⟩ => ⟨S50000x1, .i32⟩
  | .hbm, ⟨36, _⟩ => ⟨S50000x64, .f32⟩
  | .hbm, ⟨37, _⟩ => ⟨S50000x1, .f32⟩
  | .hbm, ⟨38, _⟩ => ⟨S50000x64, .f32⟩
  | .hbm, ⟨39, _⟩ => ⟨S50000x64, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | .hbm, ⟨53, _⟩ => ⟨S50000x1, .f32⟩
  | .hbm, ⟨54, _⟩ => ⟨S50000x64, .f32⟩
  | .hbm, ⟨55, _⟩ => ⟨S50000x64, .f32⟩
  | .hbm, ⟨56, _⟩ => ⟨S50000x96, .f32⟩
  | .hbm, ⟨57, _⟩ => ⟨S1x96, .f32⟩
  | .hbm, ⟨58, _⟩ => ⟨S50000x96, .f32⟩
  | .hbm, ⟨59, _⟩ => ⟨S50000x96, .f32⟩
  | .hbm, ⟨60, _⟩ => ⟨S_, .f32⟩
  | .hbm, ⟨61, _⟩ => ⟨S50000x96, .f32⟩
  | .hbm, ⟨62, _⟩ => ⟨S50000x96, .f32⟩
  | .hbm, ⟨63, _⟩ => ⟨S50000x1, .f32⟩
  | .hbm, ⟨64, _⟩ => ⟨S50000x96, .f32⟩
  | .hbm, ⟨65, _⟩ => ⟨S50000x96, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x96, .f32⟩
  | .hbm, ⟨75, _⟩ => ⟨S_, .f32⟩
  | .hbm, ⟨76, _⟩ => ⟨S50000x96, .f32⟩
  | .hbm, ⟨77, _⟩ => ⟨S800000x1, .i32⟩
  | .hbm, ⟨78, _⟩ => ⟨S50000x96, .f32⟩
  | .hbm, ⟨79, _⟩ => ⟨S50000x1, .f32⟩
  | .hbm, ⟨80, _⟩ => ⟨S50000x96, .f32⟩
  | .hbm, ⟨81, _⟩ => ⟨S50000x96, .f32⟩
  | .hbm, ⟨82, _⟩ => ⟨S50000x96, .f32⟩
  | .hbm, ⟨83, _⟩ => ⟨S1x96, .f32⟩
  | .hbm, ⟨84, _⟩ => ⟨S50000x96, .f32⟩
  | .hbm, ⟨85, _⟩ => ⟨S50000x96, .f32⟩
  | .hbm, ⟨86, _⟩ => ⟨S_, .f32⟩
  | .hbm, ⟨87, _⟩ => ⟨S50000x96, .f32⟩
  | .hbm, ⟨88, _⟩ => ⟨S50000x96, .f32⟩
  | .hbm, ⟨89, _⟩ => ⟨S50000x1, .f32⟩
  | .hbm, ⟨90, _⟩ => ⟨S50000x96, .f32⟩
  | .hbm, ⟨91, _⟩ => ⟨S50000x96, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x96, .f32⟩
  | .hbm, ⟨101, _⟩ => ⟨S_, .f32⟩
  | .hbm, ⟨102, _⟩ => ⟨S50000x96, .f32⟩
  | .hbm, ⟨103, _⟩ => ⟨S800000x1, .i32⟩
  | .hbm, ⟨104, _⟩ => ⟨S50000x96, .f32⟩
  | .hbm, ⟨105, _⟩ => ⟨S50000x1, .f32⟩
  | .hbm, ⟨106, _⟩ => ⟨S50000x96, .f32⟩
  | .hbm, ⟨107, _⟩ => ⟨S50000x96, .f32⟩
  | .hbm, ⟨108, _⟩ => ⟨S50000x50, .f32⟩
  | .hbm, ⟨109, _⟩ => ⟨S1x50, .f32⟩
  | .hbm, ⟨110, _⟩ => ⟨S50000x50, .f32⟩
  | .hbm, ⟨111, _⟩ => ⟨S50000x50, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_cst : Ref sig .tc := ⟨.hbm, 60, rfl⟩
abbrev main_call0_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_11 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  scatter_S50000_S800000x1_S800000_n_0_0_1_wf : ScatterDims.WF S50000 S800000x1 S800000 [] [0] [0] 1
  gather_S50x64_S50000x1_S50000x64_1_0_n_n_0_1_164_wf : GatherDims.WF S50x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x96_S50000x96_1_0_0_1_n_n_wf : DotDims.WF S50000x64 S64x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x50_S50000x50_1_0_0_1_n_n_wf : DotDims.WF S50000x96 S96x50 S50000x50 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50x64_S50000x1_S50000x64_1_0_n_n_0_1_164 : GatherDims S50x64 S50000x1 S50000x64 where
  offsetDims := [1]
  collapsedSliceDims := [0]
  operandBatchingDims := []
  startIndicesBatchingDims := []
  startIndexMap := [0]
  indexVectorDim := 1
  sliceSizes := ![1, 64]
  wf := gather_S50x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x96_S50000x96_1_0_0_1_n_n : DotDims S50000x64 S64x96 S50000x96 where
  lhsContracting := [1]
  rhsContracting := [0]
  lhsNonContracting := [0]
  rhsNonContracting := [1]
  lhsBatch := []
  rhsBatch := []
  wf := dot_S50000x64_S64x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x50_S50000x50_1_0_0_1_n_n : DotDims S50000x96 S96x50 S50000x50 where
  lhsContracting := [1]
  rhsContracting := [0]
  lhsNonContracting := [0]
  rhsNonContracting := [1]
  lhsBatch := []
  rhsBatch := []
  wf := dot_S50000x96_S96x50_S50000x50_1_0_0_1_n_n_wf

class Facts : Prop extends Facts₀ where

variable [Facts]
-- ==== Proof.KernelRun.lean ====
/-
  The kernel program's run with its result named. The program runs three pipelined regions between stretches of host
  operations; after the last region every unscoped buffer of a core holds the contents the fold of the stretches and of
  the regions' write-backs leaves, so in particular the program's result buffer does. The statement is the frame's with
  one more conjunct: the result buffer at the end holds the last boundary's contents at that buffer.
-/
import proofs.«173833_j3513283248845_1_alg».proof.Defs
import proofs.«173833_j3513283248845_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result buffer holds the last
    boundary's contents and the argument arrays are as launched. -/
theorem run_named : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Hand

end
-- ==== Proof.Spec.lean ====
/-
  A three-layer graph convolution as ONE function of the argument arrays, in the host operations' own words.

  For node features `H` (one row per node), an edge list `(src, dst)` and the two degree scalings
  `outN = (max (out-degree) 1)^(-1/2)`, `inN = (max (in-degree) 1)^(-1/2)`, one layer is
      H ↦ act ((Σ over the edges into a node of (H · outN) at the edge's source) · inN) W + b),
  the sum over incoming edges written as a gather of the source rows followed by a scatter-add at the destinations.
  The layers here are cut where the next gather reads: a layer hands on its result ALREADY scaled by `outN`, so every
  aggregation (`agg64`, `agg96`) is the plain gather and scatter-add of what it is given.
-/
import proofs.«173833_j3513283248845_1_alg».proof.ReferenceIdeal
import proofs.«173833_j3513283248845_1_alg».proof.Proof.Gen.ReferenceIdeal
import Idealize.ShloMosaic.PureOps.Ideal

noncomputable section

namespace Cert.GCN

open Idealize.ShloMosaic Cert.ReferenceIdeal Cert.ReferenceIdeal.Gen

/-- A float array of a shape, at the extended reals. -/
abbrev FA (s : Shape) : Type := FVec Ideal s .f32
/-- A 32-bit integer array of a shape. -/
abbrev IA (s : Shape) : Type := IVec s 32

/-- `(max deg 1)^(-1/2)` per node, `deg` the number of edges whose end `e` names the node (a scatter-add of ones). -/
def invSqrtDeg (e : IA S800000) : FA S50000 :=
  Host.rsqrt (maximumf (Host.scatterAdd scatter_S50000_S800000x1_S800000_n_0_0_1
      (broadcastInDim S50000 ![] bcast_S_S50000 (constant S_ .f32 0x00000000#32))
      (broadcastInDim S800000x1 ![0] bcast_S800000_S800000x1_0 e)
      (broadcastInDim S800000 ![] bcast_S_S800000 (constant S_ .f32 0x3F800000#32)))
    (broadcastInDim S50000 ![] bcast_S_S50000 (constant S_ .f32 0x3F800000#32)))

/-- The edge ends as start indices of a row gather: a negative index counts from the end, and the list becomes a column. -/
def wrapIdx (e : IA S800000) : IA S800000x1 :=
  broadcastInDim S800000x1 ![0] bcast_S800000_S800000x1_0
    (select (cmpi .slt e (broadcastInDim S800000 ![] bcast_S_S800000 (constantI S_ 32 0#32)))
      (addi e (broadcastInDim S800000 ![] bcast_S_S800000 (constantI S_ 32 50000#32))) e)

/-- Sum, at every node, of the rows of `H` at the sources of the edges into it (64 features). -/
def agg64 (H : FA S50000x64) (src dst : IA S800000) : FA S50000x64 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 H (wrapIdx src))

/-- The same for 96 features. -/
def agg96 (H : FA S50000x96) (src dst : IA S800000) : FA S50000x96 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (Host.gather gather_S50000x96_S800000x1_S800000x96_1_0_n_n_0_1_196 H (wrapIdx src))

/-- The embedding lookup: row `lab n` of the table for node `n` (a negative label counts from the end). -/
def embed (lab : IA S50000) (tbl : FA S50x64) : FA S50000x64 :=
  Host.gather gather_S50x64_S50000x1_S50000x64_1_0_n_n_0_1_164 tbl
    (broadcastInDim S50000x1 ![0] bcast_S50000_S50000x1_0
      (select (cmpi .slt lab (broadcastInDim S50000 ![] bcast_S_S50000 (constantI S_ 32 0#32)))
        (addi lab (broadcastInDim S50000 ![] bcast_S_S50000 (constantI S_ 32 50#32))) lab))

/-- A per-node vector as a column. -/
def colOf (v : FA S50000) : FA S50000x1 := broadcastInDim S50000x1 ![0] bcast_S50000_S50000x1_0 v
/-- A bias vector as a row (96 entries). -/
def rowOf96 (b : FA S96) : FA S1x96 := broadcastInDim S1x96 ![1] bcast_S96_S1x96_1 b
/-- A bias vector as a row (50 entries). -/
def rowOf50 (b : FA S50) : FA S1x50 := broadcastInDim S1x50 ![1] bcast_S50_S1x50_1 b

/-- Every row `n` of `H` scaled by `col n`. -/
def scale64 (H : FA S50000x64) (col : FA S50000x1) : FA S50000x64 :=
  mulf H (broadcastInDim S50000x64 ![0, 1] bcast_S50000x1_S50000x64_0_1 col)

/-- The dense half of a hidden layer, 64 features in: `max ((X · ci) W + b) 0 · co`, the columns `ci`, `co` scaling rows. -/
def conv64 (X : FA S50000x64) (ci co : FA S50000x1) (W : FA S64x96) (b : FA S1x96) : FA S50000x96 :=
  mulf (maximumf (addf (Host.dotGeneral dot_S50000x64_S64x96_S50000x96_1_0_0_1_n_n none
          (mulf X (broadcastInDim S50000x64 ![0, 1] bcast_S50000x1_S50000x64_0_1 ci)) W)
        (broadcastInDim S50000x96 ![0, 1] bcast_S1x96_S50000x96_0_1 b))
      (broadcastInDim S50000x96 ![] bcast_S_S50000x96 (constant S_ .f32 0x00000000#32)))
    (broadcastInDim S50000x96 ![0, 1] bcast_S50000x1_S50000x96_0_1 co)

/-- The same, 96 features in. -/
def conv96 (X : FA S50000x96) (ci co : FA S50000x1) (W : FA S96x96) (b : FA S1x96) : FA S50000x96 :=
  mulf (maximumf (addf (Host.dotGeneral dot_S50000x96_S96x96_S50000x96_1_0_0_1_n_n none
          (mulf X (broadcastInDim S50000x96 ![0, 1] bcast_S50000x1_S50000x96_0_1 ci)) W)
        (broadcastInDim S50000x96 ![0, 1] bcast_S1x96_S50000x96_0_1 b))
      (broadcastInDim S50000x96 ![] bcast_S_S50000x96 (constant S_ .f32 0x00000000#32)))
    (broadcastInDim S50000x96 ![0, 1] bcast_S50000x1_S50000x96_0_1 co)

/-- The dense half of the last layer: `(X · ci) W + b`, no activation and no rescaling. -/
def lin50 (X : FA S50000x96) (ci : FA S50000x1) (W : FA S96x50) (b : FA S1x50) : FA S50000x50 :=
  addf (Host.dotGeneral dot_S50000x96_S96x50_S50000x50_1_0_0_1_n_n none
      (mulf X (broadcastInDim S50000x96 ![0, 1] bcast_S50000x1_S50000x96_0_1 ci)) W)
    (broadcastInDim S50000x50 ![0, 1] bcast_S1x50_S50000x50_0_1 b)

/-- THE NETWORK: embedding lookup scaled by `outN`, two hidden layers, the output layer. -/
def gcn (lab : IA S50000) (src dst : IA S800000) (tbl : FA S50x64) (W1 : FA S64x96) (b1 : FA S96) (W2 : FA S96x96) (b2 : FA S96)
    (W3 : FA S96x50) (b3 : FA S50) : FA S50000x50 :=
  lin50 (agg96 (conv96 (agg96 (conv64 (agg64 (scale64 (embed lab tbl) (colOf (invSqrtDeg src))) src dst)
            (colOf (invSqrtDeg dst)) (colOf (invSqrtDeg src)) W1 (rowOf96 b1)) src dst)
        (colOf (invSqrtDeg dst)) (colOf (invSqrtDeg src)) W2 (rowOf96 b2)) src dst)
    (colOf (invSqrtDeg dst)) W3 (rowOf50 b3)

end Cert.GCN

end
-- ==== Proof.LibColumn.lean ====
/-
  Column vectors read at an index.

  A sum over the last axis that keeps that axis (`keepdims`) leaves a column: an `[a]` vector viewed as `[a, 1]`,
  then laid along every column of an `[a, b]` matrix.  Both steps only rename indices: entry `(i, 0)` of the column is
  entry `i` of the vector, and entry `(p, c)` of the broadcast matrix is entry `(p, 0)` of the column, whatever `c`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to the column `[a, 1]` reads, at `(i, u)`, the operand at `i`, whatever the unit coordinate
    `u`: both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Columns.lean ====
import proofs.«173833_j3513283248845_1_alg».proof.Proof.Spec
import proofs.«173833_j3513283248845_1_alg».proof.KernelIdeal
import proofs.«173833_j3513283248845_1_alg».proof.Proof.Gen.KernelIdeal
import proofs.«173833_j3513283248845_1_alg».proof.Proof.LibColumn
import Idealize.ShloMosaic.Lib.ValueIdx
import Idealize.ShloMosaic.Lib.Pipeline.Value

noncomputable section

open scoped BigOperators
open Idealize.ShloMosaic Idealize.ShloMosaic.ValueIdx

namespace Cert.GCN

/-! ## A reshape that only adds a unit axis is the broadcast that adds it

The kernel's program turns a per-node vector into a column, and a bias vector into a row, by a reshape; the reference by a
broadcast along the new unit axis. Both read the vector at the one coordinate that is not the unit one. -/

open Cert.KernelIdeal Cert.KernelIdeal.Gen

/-- A per-node vector reshaped to a column is the vector as a column. -/
theorem col_eq (v : FA S50000) : shapeCast S50000x1 v shapeCasts_S50000_S50000x1 = colOf v := by
  funext i
  obtain ⟨n, u, rfl⟩ : ∃ (n : Fin 50000) (u : Fin 1), i = ix2 n u := ⟨i 0, i 1, eq_ix2 i⟩
  unfold colOf
  rw [Cert.LibColumn.shapeCast_a_a1_apply]
  exact (broadcastInDim_apply _ _ v (ix2 n u) (ix1 n) (fun a => match a with
    | ⟨0, _⟩ => by show n.val = if (50000 : Nat) = 1 then 0 else n.val; rw [if_neg (by decide)])).symm

/-- A 96-entry bias reshaped to a row is the bias as a row. -/
theorem row96_eq (b : FA S96) : shapeCast S1x96 b shapeCasts_S96_S1x96 = rowOf96 b := by
  funext i
  obtain ⟨u, j, rfl⟩ : ∃ (u : Fin 1) (j : Fin 96), i = ix2 u j := ⟨i 0, i 1, eq_ix2 i⟩
  unfold rowOf96
  rw [shapeCast_apply b shapeCasts_S96_S1x96 (ix2 u j) (ix1 j) (by
    rw [Shape.rowMajor_val_two, Shape.rowMajor_val_one]
    show j.val = u.val * 96 + j.val
    have hu : u.val = 0 := by omega
    omega)]
  exact (broadcastInDim_apply _ _ b (ix2 u j) (ix1 j) (fun a => match a with
    | ⟨0, _⟩ => by show j.val = if (96 : Nat) = 1 then 0 else j.val; rw [if_neg (by decide)])).symm

/-- A 50-entry bias reshaped to a row is the bias as a row. -/
theorem row50_eq (b : FA S50) : shapeCast S1x50 b shapeCasts_S50_S1x50 = rowOf50 b := by
  funext i
  obtain ⟨u, j, rfl⟩ : ∃ (u : Fin 1) (j : Fin 50), i = ix2 u j := ⟨i 0, i 1, eq_ix2 i⟩
  unfold rowOf50
  rw [shapeCast_apply b shapeCasts_S50_S1x50 (ix2 u j) (ix1 j) (by
    rw [Shape.rowMajor_val_two, Shape.rowMajor_val_one]
    show j.val = u.val * 50 + j.val
    have hu : u.val = 0 := by omega
    omega)]
  exact (broadcastInDim_apply _ _ b (ix2 u j) (ix1 j) (fun a => match a with
    | ⟨0, _⟩ => by show j.val = if (50 : Nat) = 1 then 0 else j.val; rw [if_neg (by decide)])).symm

end Cert.GCN

end
-- ==== Proof.Stretches.lean ====
import proofs.«173833_j3513283248845_1_alg».proof.Proof.Spec
import proofs.«173833_j3513283248845_1_alg».proof.Proof.Columns
import proofs.«173833_j3513283248845_1_alg».proof.Proof.Gen.KernelIdeal.Launch
import Idealize.ShloMosaic.Lib.StableHlo.Run

noncomputable section

open scoped BigOperators
open Idealize.ShloMosaic Idealize.ShloMosaic.TcCoe Idealize.SL.Sem Idealize.ShloMosaic.StableHlo

namespace Cert.GCN

open Cert.KernelIdeal Cert.KernelIdeal.Gen

/-! ## The three stretches of host operations, each from ANY contents `Wa` of the buffers

A stretch writes the buffers of its own lines and leaves every other buffer alone; what it writes is the lines' functions
composed. The first stretch computes the two degree scalings, looks the embeddings up, scales them and aggregates them over the
edges; the second and the third aggregate what the region before them left, and lay the next bias out as a row. -/

section Stretches
variable (Wa : Valuation τ sig (Elt Ideal))

/-- The first stretch leaves the aggregated, scaled embeddings in region 0's first operand. -/
theorem s0_v33 : StableHlo.after hostOps0 Wa (Proc.devRef .tc main_v33)
    = agg64 (scale64 (embed (Wa (Proc.devRef .tc main_arg0)) (Wa (Proc.devRef .tc main_arg3))) (colOf (invSqrtDeg (Wa (Proc.devRef .tc main_arg1))))) (Wa (Proc.devRef .tc main_arg1)) (Wa (Proc.devRef .tc main_arg2)) := by
  after_results_simp
  rw [← col_eq]
  rfl
/-- … the in-degree scaling, as a column, in its second, -/
theorem s0_v13 : StableHlo.after hostOps0 Wa (Proc.devRef .tc main_v13) = colOf (invSqrtDeg (Wa (Proc.devRef .tc main_arg2))) := by
  after_results_simp
  exact col_eq _
/-- … the out-degree scaling, as a column, in its third, -/
theorem s0_v14 : StableHlo.after hostOps0 Wa (Proc.devRef .tc main_v14) = colOf (invSqrtDeg (Wa (Proc.devRef .tc main_arg1))) := by
  after_results_simp
  exact col_eq _
/-- … and the first bias, as a row, in its fifth. -/
theorem s0_v34 : StableHlo.after hostOps0 Wa (Proc.devRef .tc main_v34) = rowOf96 (Wa (Proc.devRef .tc main_arg5)) := by
  after_results_simp
  exact row96_eq _
theorem s0_arg1 : StableHlo.after hostOps0 Wa (Proc.devRef .tc main_arg1) = Wa (Proc.devRef .tc main_arg1) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s0_arg2 : StableHlo.after hostOps0 Wa (Proc.devRef .tc main_arg2) = Wa (Proc.devRef .tc main_arg2) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s0_arg4 : StableHlo.after hostOps0 Wa (Proc.devRef .tc main_arg4) = Wa (Proc.devRef .tc main_arg4) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s0_arg6 : StableHlo.after hostOps0 Wa (Proc.devRef .tc main_arg6) = Wa (Proc.devRef .tc main_arg6) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s0_arg7 : StableHlo.after hostOps0 Wa (Proc.devRef .tc main_arg7) = Wa (Proc.devRef .tc main_arg7) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s0_arg8 : StableHlo.after hostOps0 Wa (Proc.devRef .tc main_arg8) = Wa (Proc.devRef .tc main_arg8) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s0_arg9 : StableHlo.after hostOps0 Wa (Proc.devRef .tc main_arg9) = Wa (Proc.devRef .tc main_arg9) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The second stretch aggregates region 0's result over the edges, -/
theorem s1_v45 : StableHlo.after hostOps1 Wa (Proc.devRef .tc main_v45) = agg96 (Wa (Proc.devRef .tc main_v35)) (Wa (Proc.devRef .tc main_arg1)) (Wa (Proc.devRef .tc main_arg2)) := by
  after_results_simp
  rfl
/-- … and lays the second bias out as a row. -/
theorem s1_v46 : StableHlo.after hostOps1 Wa (Proc.devRef .tc main_v46) = rowOf96 (Wa (Proc.devRef .tc main_arg7)) := by
  after_results_simp
  exact row96_eq _
theorem s1_v13 : StableHlo.after hostOps1 Wa (Proc.devRef .tc main_v13) = Wa (Proc.devRef .tc main_v13) :=
  StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s1_v14 : StableHlo.after hostOps1 Wa (Proc.devRef .tc main_v14) = Wa (Proc.devRef .tc main_v14) :=
  StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s1_arg1 : StableHlo.after hostOps1 Wa (Proc.devRef .tc main_arg1) = Wa (Proc.devRef .tc main_arg1) :=
  StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s1_arg2 : StableHlo.after hostOps1 Wa (Proc.devRef .tc main_arg2) = Wa (Proc.devRef .tc main_arg2) :=
  StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s1_arg6 : StableHlo.after hostOps1 Wa (Proc.devRef .tc main_arg6) = Wa (Proc.devRef .tc main_arg6) :=
  StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s1_arg8 : StableHlo.after hostOps1 Wa (Proc.devRef .tc main_arg8) = Wa (Proc.devRef .tc main_arg8) :=
  StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s1_arg9 : StableHlo.after hostOps1 Wa (Proc.devRef .tc main_arg9) = Wa (Proc.devRef .tc main_arg9) :=
  StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The third stretch aggregates region 1's result over the edges, -/
theorem s2_v57 : StableHlo.after hostOps2 Wa (Proc.devRef .tc main_v57) = agg96 (Wa (Proc.devRef .tc main_v47)) (Wa (Proc.devRef .tc main_arg1)) (Wa (Proc.devRef .tc main_arg2)) := by
  after_results_simp
  rfl
/-- … and lays the last bias out as a row. -/
theorem s2_v58 : StableHlo.after hostOps2 Wa (Proc.devRef .tc main_v58) = rowOf50 (Wa (Proc.devRef .tc main_arg9)) := by
  after_results_simp
  exact row50_eq _
theorem s2_v13 : StableHlo.after hostOps2 Wa (Proc.devRef .tc main_v13) = Wa (Proc.devRef .tc main_v13) :=
  StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem s2_arg8 : StableHlo.after hostOps2 Wa (Proc.devRef .tc main_arg8) = Wa (Proc.devRef .tc main_arg8) :=
  StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

end Stretches

end Cert.GCN

end
-- ==== Proof.Layer1.lean ====
import proofs.«173833_j3513283248845_1_alg».proof.Defs
import proofs.«173833_j3513283248845_1_alg».proof.Proof.Spec
import proofs.«173833_j3513283248845_1_alg».proof.Proof.Gen.KernelIdeal.Frame
import proofs.«173833_j3513283248845_1_alg».proof.Proof.Gen.ReferenceIdeal.Read
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx Idealize.SL.Sem

namespace Cert.GCN

/-! ## Hidden layer 1 on whole arrays: `max ((X · ci) W + b) 0 · co`, entry by entry -/

section Host
open Cert.ReferenceIdeal Cert.ReferenceIdeal.Gen Cert.ReferenceIdeal.Read

/-- Entry `(n, j)` of the hidden layer: the sum over `k` of `X n k · ci n · W k j`, plus `b j`, cut below at zero, times `co n`. -/
theorem conv64_apply (X : FA S50000x64) (ci co : FA S50000x1) (W : FA S64x96) (b : FA S1x96) (n : Fin 50000) (j : Fin 96) :
    conv64 X ci co W b (ix2 n j)
      = max ((∑ k : Fin 64, (X (ix2 n k) * ci (ix2 n (0 : Fin 1))) * W (ix2 k j)) + b (ix2 (0 : Fin 1) j)) (Ideal.ofBits .f32 0x00000000#32)
        * co (ix2 n (0 : Fin 1)) := by
  unfold conv64
  rw [mulf_apply, maximumf_apply, addf_apply]
  have hco : broadcastInDim S50000x96 ![0, 1] bcast_S50000x1_S50000x96_0_1 co (ix2 n j) = co (ix2 n (0 : Fin 1)) :=
    broadcastInDim_apply _ bcast_S50000x1_S50000x96_0_1 co (ix2 n j) (ix2 n (0 : Fin 1)) (fun a => match a with
      | ⟨0, _⟩ => by show n.val = if (50000 : Nat) = 1 then 0 else n.val; rw [if_neg (by decide)]
      | ⟨1, _⟩ => by show 0 = if (1 : Nat) = 1 then 0 else j.val; rw [if_pos rfl])
  have hb : broadcastInDim S50000x96 ![0, 1] bcast_S1x96_S50000x96_0_1 b (ix2 n j) = b (ix2 (0 : Fin 1) j) :=
    broadcastInDim_apply _ bcast_S1x96_S50000x96_0_1 b (ix2 n j) (ix2 (0 : Fin 1) j) (fun a => match a with
      | ⟨0, _⟩ => by show 0 = if (1 : Nat) = 1 then 0 else n.val; rw [if_pos rfl]
      | ⟨1, _⟩ => by show j.val = if (96 : Nat) = 1 then 0 else j.val; rw [if_neg (by decide)])
  have hz0 : broadcastInDim S50000x96 ![] bcast_S_S50000x96 (constant (F := Ideal) S_ .f32 0x00000000#32) (ix2 n j) = Ideal.ofBits .f32 0x00000000#32 :=
    broadcastInDim_apply _ bcast_S_S50000x96 (constant (F := Ideal) S_ .f32 0x00000000#32) (ix2 n j) (fun a => a.elim0) (fun a => a.elim0)
  rw [hco, hb, hz0]
  refine congrArg (fun s => max (s + b (ix2 (0 : Fin 1) j)) (Ideal.ofBits .f32 0x00000000#32) * co (ix2 n (0 : Fin 1))) ?_
  simp only [Host.dotGeneral]
  rw [Ideal.dotGeneral_apply, ← Equiv.sum_comp (contrEquiv1 dot_S50000x64_S64x96_S50000x96_1_0_0_1_n_n 64 rfl rfl).symm]
  refine Finset.sum_congr rfl fun k _ => ?_
  have hk := contrEquiv1_symm_val dot_S50000x64_S64x96_S50000x96_1_0_0_1_n_n 64 rfl rfl k
  have el : dot_S50000x64_S64x96_S50000x96_1_0_0_1_n_n.lhsIdx (ix2 n j) ((contrEquiv1 dot_S50000x64_S64x96_S50000x96_1_0_0_1_n_n 64 rfl rfl).symm k) = ix2 n k := funext fun a => Fin.ext (by
    match a with
    | ⟨0, _⟩ => exact lhs_main_v36_0 _ _
    | ⟨1, _⟩ => exact (lhs_main_v36_1 _ _).trans hk)
  have er : dot_S50000x64_S64x96_S50000x96_1_0_0_1_n_n.rhsIdx (ix2 n j) ((contrEquiv1 dot_S50000x64_S64x96_S50000x96_1_0_0_1_n_n 64 rfl rfl).symm k) = ix2 k j := funext fun a => Fin.ext (by
    match a with
    | ⟨0, _⟩ => exact (rhs_main_v36_0 _ _).trans hk
    | ⟨1, _⟩ => exact rhs_main_v36_1 _ _)
  rw [el, er]
  show X (ix2 n k) * broadcastInDim S50000x64 ![0, 1] bcast_S50000x1_S50000x64_0_1 ci (ix2 n k) * W (ix2 k j) = _
  rw [broadcastInDim_apply _ bcast_S50000x1_S50000x64_0_1 ci (ix2 n k) (ix2 n (0 : Fin 1)) (fun a => match a with
    | ⟨0, _⟩ => by show n.val = if (50000 : Nat) = 1 then 0 else n.val; rw [if_neg (by decide)]
    | ⟨1, _⟩ => by show 0 = if (1 : Nat) = 1 then 0 else k.val; rw [if_pos rfl])]

end Host

/-! ## Region 0: one block of the hidden layer -/

section Kernel
open Cert.KernelIdeal Cert.KernelIdeal.Gen
open Idealize.ShloMosaic.Pipeline (Dat)

theorem hz1 : (![0, 0] : Fin 2 → Nat) = fun _ => 0 := funext fun a => by fin_cases a <;> rfl

theorem klhs1_0 (i : S2000x96.Idx) (q : dot_S2000x64_S64x96_S2000x96_1_0_0_1_n_n.contr.Idx) : (dot_S2000x64_S64x96_S2000x96_1_0_0_1_n_n.lhsIdx i q 0).val = (i 0).val := by
  unfold DotDims.lhsIdx
  rw [dif_neg (show ¬(0 : Fin S2000x64.rank) ∈ dot_S2000x64_S64x96_S2000x96_1_0_0_1_n_n.lhsBatch by decide), dif_pos (show (0 : Fin S2000x64.rank) ∈ dot_S2000x64_S64x96_S2000x96_1_0_0_1_n_n.lhsNonContracting by decide)]
  rfl
theorem klhs1_1 (i : S2000x96.Idx) (q : dot_S2000x64_S64x96_S2000x96_1_0_0_1_n_n.contr.Idx) : (dot_S2000x64_S64x96_S2000x96_1_0_0_1_n_n.lhsIdx i q 1).val = (q ⟨0, by decide⟩).val :=
  dot_S2000x64_S64x96_S2000x96_1_0_0_1_n_n.lhsIdx_val_of_single rfl i q
theorem krhs1_0 (i : S2000x96.Idx) (q : dot_S2000x64_S64x96_S2000x96_1_0_0_1_n_n.contr.Idx) : (dot_S2000x64_S64x96_S2000x96_1_0_0_1_n_n.rhsIdx i q 0).val = (q ⟨0, by decide⟩).val :=
  dot_S2000x64_S64x96_S2000x96_1_0_0_1_n_n.rhsIdx_val_of_single rfl i q
theorem krhs1_1 (i : S2000x96.Idx) (q : dot_S2000x64_S64x96_S2000x96_1_0_0_1_n_n.contr.Idx) : (dot_S2000x64_S64x96_S2000x96_1_0_0_1_n_n.rhsIdx i q 1).val = (i 1).val := by
  unfold DotDims.rhsIdx
  rw [dif_neg (show ¬(1 : Fin S64x96.rank) ∈ dot_S2000x64_S64x96_S2000x96_1_0_0_1_n_n.rhsBatch by decide), dif_pos (show (1 : Fin S64x96.rank) ∈ dot_S2000x64_S64x96_S2000x96_1_0_0_1_n_n.rhsNonContracting by decide)]
  rfl

/-- Entry `(p, j)` of the block the body stores: the sum over `k` of `x0 p k · x1 p · x3 k j`, plus `x4 j`, cut below at zero, times
    `x2 p` (the product into a zero accumulator is the plain sum; the change of format on the way in is the identity). -/
theorem pay1_apply (x0 : Vec Ideal S2000x64 .f32) (x1 x2 : Vec Ideal S2000x1 .f32) (x3 : Vec Ideal S64x96 .f32) (x4 : Vec Ideal S1x96 .f32)
    (p : Fin 2000) (j : Fin 96) :
    k0_pay1 x0 x1 x3 x4 x2 (ix2 p j)
      = max ((∑ k : Fin 64, (x0 (ix2 p k) * x1 (ix2 p (0 : Fin 1))) * x3 (ix2 k j)) + x4 (ix2 (0 : Fin 1) j)) (Ideal.ofBits .f32 0x00000000#32)
        * x2 (ix2 p (0 : Fin 1)) := by
  unfold k0_pay1
  simp only [shapeCast_self]
  rw [mulf_apply, maximumf_apply, addf_apply]
  have hx2 : broadcastTo S2000x96 x2 broadcasts_S2000x1_S2000x96 (ix2 p j) = x2 (ix2 p (0 : Fin 1)) :=
    broadcastTo_apply x2 broadcasts_S2000x1_S2000x96 (ix2 p j) (ix2 p (0 : Fin 1)) (fun a => match a with
      | ⟨0, _⟩ => by show p.val = if (2000 : Nat) = 1 then 0 else p.val; rw [if_neg (by decide)]
      | ⟨1, _⟩ => by show 0 = if (1 : Nat) = 1 then 0 else j.val; rw [if_pos rfl])
  have hx4 : broadcastTo S2000x96 x4 broadcasts_S1x96_S2000x96 (ix2 p j) = x4 (ix2 (0 : Fin 1) j) :=
    broadcastTo_apply x4 broadcasts_S1x96_S2000x96 (ix2 p j) (ix2 (0 : Fin 1) j) (fun a => match a with
      | ⟨0, _⟩ => by show 0 = if (1 : Nat) = 1 then 0 else p.val; rw [if_pos rfl]
      | ⟨1, _⟩ => by show j.val = if (96 : Nat) = 1 then 0 else j.val; rw [if_neg (by decide)])
  rw [hx2, hx4]
  refine congrArg (fun s => max (s + x4 (ix2 (0 : Fin 1) j)) (Ideal.ofBits .f32 0x00000000#32) * x2 (ix2 p (0 : Fin 1))) ?_
  refine (Ideal.matmul_constant_zero_apply dot_S2000x64_S64x96_S2000x96_1_0_0_1_n_n none _ _ (ix2 p j)).trans ?_
  rw [← Equiv.sum_comp (contrEquiv1 dot_S2000x64_S64x96_S2000x96_1_0_0_1_n_n 64 rfl rfl).symm]
  refine Finset.sum_congr rfl fun k _ => ?_
  have hk := contrEquiv1_symm_val dot_S2000x64_S64x96_S2000x96_1_0_0_1_n_n 64 rfl rfl k
  have el : dot_S2000x64_S64x96_S2000x96_1_0_0_1_n_n.lhsIdx (ix2 p j) ((contrEquiv1 dot_S2000x64_S64x96_S2000x96_1_0_0_1_n_n 64 rfl rfl).symm k) = ix2 p k := funext fun a => Fin.ext (by
    match a with
    | ⟨0, _⟩ => exact klhs1_0 _ _
    | ⟨1, _⟩ => exact (klhs1_1 _ _).trans hk)
  have er : dot_S2000x64_S64x96_S2000x96_1_0_0_1_n_n.rhsIdx (ix2 p j) ((contrEquiv1 dot_S2000x64_S64x96_S2000x96_1_0_0_1_n_n 64 rfl rfl).symm k) = ix2 k j := funext fun a => Fin.ext (by
    match a with
    | ⟨0, _⟩ => exact (krhs1_0 _ _).trans hk
    | ⟨1, _⟩ => exact krhs1_1 _ _)
  rw [el, er]
  show x0 (ix2 p k) * broadcastTo S2000x64 x1 broadcasts_S2000x1_S2000x64 (ix2 p k) * x3 (ix2 k j) = _
  rw [broadcastTo_apply x1 broadcasts_S2000x1_S2000x64 (ix2 p k) (ix2 p (0 : Fin 1)) (fun a => match a with
    | ⟨0, _⟩ => by show p.val = if (2000 : Nat) = 1 then 0 else p.val; rw [if_neg (by decide)]
    | ⟨1, _⟩ => by show 0 = if (1 : Nat) = 1 then 0 else k.val; rw [if_pos rfl])]

end Kernel

/-! ## The windows' blocks as rows of the arrays -/

section Blocks
open Cert.KernelIdeal Cert.KernelIdeal.Gen
open Idealize.ShloMosaic.Pipeline (Dat)

variable (V : (c : Dev nD) → (b : Ref sig .tc) → Buf (Elt Ideal) ((c : Thread nD τ).loc b))

/-- Region 0's index maps, decided over the grid: the row-blocked windows are at block row `t`, the weight's and the bias's
    windows at block (0, 0). -/
theorem idx1 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` of the aggregated features is row `2000 t + p` of the array. -/
theorem blk1_0 (c : Dev nD) (t : Fin cfg0.N) (p : Fin 2000) (k : Fin 64) (n : Fin 50000) (hn : n.val = 2000 * t.val + p.val) :
    (iblk0 V c 0 t : Vec Ideal S2000x64 .f32) (ix2 p k) = (V c main_v33 : S50000x64.Idx → Elt Ideal .f32) (ix2 n k) := by
  obtain ⟨e0, e1, -⟩ := idx1 t
  unfold iblk0
  rw [View.read_apply]
  show V c main_v33 _ = V c main_v33 _
  refine congrArg (V c main_v33) (funext fun a => Fin.ext ?_)
  match a with
  | ⟨0, _⟩ => show win0_0.index t (0 : Fin 2) * 2000 + 1 * p.val = n.val; rw [e0, hn]; omega
  | ⟨1, _⟩ => show win0_0.index t (1 : Fin 2) * 64 + 1 * k.val = k.val; rw [e1]; omega

/-- Row `p` of block `t` of the inner scaling column is row `2000 t + p` of the column. -/
theorem blk1_1 (c : Dev nD) (t : Fin cfg0.N) (p : Fin 2000) (n : Fin 50000) (hn : n.val = 2000 * t.val + p.val) :
    (iblk0 V c 1 t : Vec Ideal S2000x1 .f32) (ix2 p (0 : Fin 1)) = (V c main_v13 : S50000x1.Idx → Elt Ideal .f32) (ix2 n (0 : Fin 1)) := by
  obtain ⟨-, -, e2, e3, -⟩ := idx1 t
  unfold iblk0
  rw [View.read_apply]
  show V c main_v13 _ = V c main_v13 _
  refine congrArg (V c main_v13) (funext fun a => Fin.ext ?_)
  match a with
  | ⟨0, _⟩ => show win0_1.index t (0 : Fin 2) * 2000 + 1 * p.val = n.val; rw [e2, hn]; omega
  | ⟨1, _⟩ => show win0_1.index t (1 : Fin 2) * 1 + 1 * 0 = 0; rw [e3]

/-- Row `p` of block `t` of the outer scaling column is row `2000 t + p` of the column. -/
theorem blk1_2 (c : Dev nD) (t : Fin cfg0.N) (p : Fin 2000) (n : Fin 50000) (hn : n.val = 2000 * t.val + p.val) :
    (iblk0 V c 2 t : Vec Ideal S2000x1 .f32) (ix2 p (0 : Fin 1)) = (V c main_v14 : S50000x1.Idx → Elt Ideal .f32) (ix2 n (0 : Fin 1)) := by
  obtain ⟨-, -, -, -, e2, e3, -⟩ := idx1 t
  unfold iblk0
  rw [View.read_apply]
  show V c main_v14 _ = V c main_v14 _
  refine congrArg (V c main_v14) (funext fun a => Fin.ext ?_)
  match a with
  | ⟨0, _⟩ => show win0_2.index t (0 : Fin 2) * 2000 + 1 * p.val = n.val; rw [e2, hn]; omega
  | ⟨1, _⟩ => show win0_2.index t (1 : Fin 2) * 1 + 1 * 0 = 0; rw [e3]

/-- The weight's one block is the weight. -/
theorem blk1_3 (c : Dev nD) (t : Fin cfg0.N) (k : Fin 64) (j : Fin 96) :
    (iblk0 V c 3 t : Vec Ideal S64x96 .f32) (ix2 k j) = (V c main_arg4 : S64x96.Idx → Elt Ideal .f32) (ix2 k j) := by
  obtain ⟨-, -, -, -, -, -, e4, e5, -⟩ := idx1 t
  unfold iblk0
  rw [View.read_apply]
  show V c main_arg4 _ = V c main_arg4 _
  refine congrArg (V c main_arg4) (funext fun a => Fin.ext ?_)
  match a with
  | ⟨0, _⟩ => show win0_3.index t (0 : Fin 2) * 64 + 1 * k.val = k.val; rw [e4]; omega
  | ⟨1, _⟩ => show win0_3.index t (1 : Fin 2) * 96 + 1 * j.val = j.val; rw [e5]; omega

/-- The bias row's one block is the row. -/
theorem blk1_4 (c : Dev nD) (t : Fin cfg0.N) (j : Fin 96) :
    (iblk0 V c 4 t : Vec Ideal S1x96 .f32) (ix2 (0 : Fin 1) j) = (V c main_v34 : S1x96.Idx → Elt Ideal .f32) (ix2 (0 : Fin 1) j) := by
  obtain ⟨-, -, -, -, -, -, -, -, e6, e7, -⟩ := idx1 t
  unfold iblk0
  rw [View.read_apply]
  show V c main_v34 _ = V c main_v34 _
  refine congrArg (V c main_v34) (funext fun a => Fin.ext ?_)
  match a with
  | ⟨0, _⟩ => show win0_4.index t (0 : Fin 2) * 1 + 1 * 0 = 0; rw [e6]
  | ⟨1, _⟩ => show win0_4.index t (1 : Fin 2) * 96 + 1 * j.val = j.val; rw [e7]; omega

/-- Entry `(p, j)` of what point `t` stores is entry `(2000 t + p, j)` of the hidden layer of the whole arrays. -/
theorem stored1 (c : Dev nD) (t : Fin cfg0.N) (p : Fin 2000) (j : Fin 96) (n : Fin 50000) (hn : n.val = 2000 * t.val + p.val) :
    k0_pay1 (iblk0 V c 0 t) (iblk0 V c 1 t) (iblk0 V c 3 t) (iblk0 V c 4 t) (iblk0 V c 2 t) (ix2 p j)
      = conv64 (V c main_v33) (V c main_v13) (V c main_v14) (V c main_arg4) (V c main_v34) (ix2 n j) := by
  refine (pay1_apply _ _ _ _ _ p j).trans ?_
  refine Eq.trans ?_ (conv64_apply _ _ _ _ _ n j).symm
  rw [blk1_4 V c t j, blk1_2 V c t p n hn]
  refine congrArg (fun s => max (s + _) _ * _) (Finset.sum_congr rfl fun k _ => ?_)
  rw [blk1_0 V c t p k n hn, blk1_1 V c t p n hn, blk1_3 V c t k j]

end Blocks

end Cert.GCN

end
-- ==== Proof.Region1.lean ====
import proofs.«173833_j3513283248845_1_alg».proof.Proof.Layer1

noncomputable section

open scoped BigOperators
open Idealize.ShloMosaic Idealize.ShloMosaic.TcCoe Idealize.ShloMosaic.ValueIdx Idealize.SL.Sem

namespace Cert.GCN

/-! ## Region 0: from the blocks to the array -/

section Region
open Cert.KernelIdeal Cert.KernelIdeal.Gen
open Idealize.ShloMosaic.Pipeline (Dat)

variable (V : (c : Dev nD) → (b : Ref sig .tc) → Buf (Elt Ideal) ((c : Thread nD τ).loc b))

/-- What point `t` writes back is block `t` of the hidden layer of the arrays the region finds. -/
theorem flushed1 (c : Dev nD) (t : Fin cfg0.N) :
    (dat0 V c).flushed 5 t = ((cfg0.win 5).blk t).view.read (Elt Ideal) (conv64 (V c main_v33) (V c main_v13) (V c main_v14) (V c main_arg4) (V c main_v34)) := by
  show (cfg0.win 5).cut (grid0.coords t) ((dat0 V c).after 5 t) = _
  rw [after0_5]
  unfold out0_5
  rw [View.canon_unit_zero hz1]
  simp only [View.ld_unit_zero (S := S2000x64) hz1, View.ld_unit_zero (S := S2000x1) hz1, View.ld_unit_zero (S := S64x96) hz1, View.ld_unit_zero (S := S1x96) hz1]
  funext y
  obtain ⟨p, j, rfl⟩ : ∃ (p : Fin 2000) (j : Fin 96), y = ix2 p j := ⟨y 0, y 1, eq_ix2 y⟩
  obtain ⟨-, -, -, -, -, -, -, -, -, -, e8, e9⟩ := idx1 t
  have ht : t.val < 25 := lt_of_lt_of_eq t.isLt N_0
  rw [View.read_apply]
  refine (stored1 V c t p j ⟨2000 * t.val + p.val, by omega⟩ rfl).trans ?_
  refine congrArg (conv64 (V c main_v33) (V c main_v13) (V c main_v14) (V c main_arg4) (V c main_v34)) (funext fun a => Fin.ext ?_)
  match a with
  | ⟨0, _⟩ => show 2000 * t.val + p.val = win0_5.index t (0 : Fin 2) * 2000 + 1 * p.val; rw [e8]; omega
  | ⟨1, _⟩ => show j.val = win0_5.index t (1 : Fin 2) * 96 + 1 * j.val; rw [e9]; omega

/-- Every row of the result is in the block of the point its row index divided by 2000 names. -/
theorem cover1 (i : S50000x96.Idx) : ∃ t : Fin cfg0.N, (cfg0.win 5).flush t = true ∧ i ∈ ((cfg0.win 5).blk t).view.set := by
  have h0 : (i 0).val < 50000 := (i 0).isLt
  have h1 : (i 1).val < 96 := (i 1).isLt
  have hN : cfg0.N = 25 := N_0
  obtain ⟨t, htv⟩ : ∃ t : Fin cfg0.N, t.val = (i 0).val / 2000 := ⟨⟨(i 0).val / 2000, by rw [hN]; omega⟩, rfl⟩
  obtain ⟨-, -, -, -, -, -, -, -, -, -, e8, e9⟩ := idx1 t
  refine ⟨t, flush0_5 t, ?_⟩
  show i ∈ ((View.whole main_v35).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; rw [e8, htv]; omega
  | ⟨1, _⟩ => show win0_5.index t (1 : Fin 2) * 96 ≤ (i 1).val ∧ (i 1).val < win0_5.index t (1 : Fin 2) * 96 + 96; rw [e9]; omega

/-- REGION 0'S RESULT: the hidden layer of the aggregated features, the two scaling columns, the weight and the bias row as
    the region finds them. -/
theorem region1 (c : Dev nD) :
    (dat0 V c).arrAt 5 cfg0.N = conv64 (V c main_v33) (V c main_v13) (V c main_v14) (V c main_arg4) (V c main_v34) :=
  (dat0 V c).arrAt_eq_of_cover 5 _ (fun t _ => flushed1 V c t) cover1

end Region

end Cert.GCN

end
-- ==== Proof.Layer2.lean ====
import proofs.«173833_j3513283248845_1_alg».proof.Defs
import proofs.«173833_j3513283248845_1_alg».proof.Proof.Spec
import proofs.«173833_j3513283248845_1_alg».proof.Proof.Gen.KernelIdeal.Frame
import proofs.«173833_j3513283248845_1_alg».proof.Proof.Gen.ReferenceIdeal.Read
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx Idealize.SL.Sem

namespace Cert.GCN

/-! ## Hidden layer 2 on whole arrays: `max ((X · ci) W + b) 0 · co`, entry by entry -/

section Host
open Cert.ReferenceIdeal Cert.ReferenceIdeal.Gen Cert.ReferenceIdeal.Read

/-- Entry `(n, j)` of the hidden layer: the sum over `k` of `X n k · ci n · W k j`, plus `b j`, cut below at zero, times `co n`. -/
theorem conv96_apply (X : FA S50000x96) (ci co : FA S50000x1) (W : FA S96x96) (b : FA S1x96) (n : Fin 50000) (j : Fin 96) :
    conv96 X ci co W b (ix2 n j)
      = max ((∑ k : Fin 96, (X (ix2 n k) * ci (ix2 n (0 : Fin 1))) * W (ix2 k j)) + b (ix2 (0 : Fin 1) j)) (Ideal.ofBits .f32 0x00000000#32)
        * co (ix2 n (0 : Fin 1)) := by
  unfold conv96
  rw [mulf_apply, maximumf_apply, addf_apply]
  have hco : broadcastInDim S50000x96 ![0, 1] bcast_S50000x1_S50000x96_0_1 co (ix2 n j) = co (ix2 n (0 : Fin 1)) :=
    broadcastInDim_apply _ bcast_S50000x1_S50000x96_0_1 co (ix2 n j) (ix2 n (0 : Fin 1)) (fun a => match a with
      | ⟨0, _⟩ => by show n.val = if (50000 : Nat) = 1 then 0 else n.val; rw [if_neg (by decide)]
      | ⟨1, _⟩ => by show 0 = if (1 : Nat) = 1 then 0 else j.val; rw [if_pos rfl])
  have hb : broadcastInDim S50000x96 ![0, 1] bcast_S1x96_S50000x96_0_1 b (ix2 n j) = b (ix2 (0 : Fin 1) j) :=
    broadcastInDim_apply _ bcast_S1x96_S50000x96_0_1 b (ix2 n j) (ix2 (0 : Fin 1) j) (fun a => match a with
      | ⟨0, _⟩ => by show 0 = if (1 : Nat) = 1 then 0 else n.val; rw [if_pos rfl]
      | ⟨1, _⟩ => by show j.val = if (96 : Nat) = 1 then 0 else j.val; rw [if_neg (by decide)])
  have hz0 : broadcastInDim S50000x96 ![] bcast_S_S50000x96 (constant (F := Ideal) S_ .f32 0x00000000#32) (ix2 n j) = Ideal.ofBits .f32 0x00000000#32 :=
    broadcastInDim_apply _ bcast_S_S50000x96 (constant (F := Ideal) S_ .f32 0x00000000#32) (ix2 n j) (fun a => a.elim0) (fun a => a.elim0)
  rw [hco, hb, hz0]
  refine congrArg (fun s => max (s + b (ix2 (0 : Fin 1) j)) (Ideal.ofBits .f32 0x00000000#32) * co (ix2 n (0 : Fin 1))) ?_
  simp only [Host.dotGeneral]
  rw [Ideal.dotGeneral_apply, ← Equiv.sum_comp (contrEquiv1 dot_S50000x96_S96x96_S50000x96_1_0_0_1_n_n 96 rfl rfl).symm]
  refine Finset.sum_congr rfl fun k _ => ?_
  have hk := contrEquiv1_symm_val dot_S50000x96_S96x96_S50000x96_1_0_0_1_n_n 96 rfl rfl k
  have el : dot_S50000x96_S96x96_S50000x96_1_0_0_1_n_n.lhsIdx (ix2 n j) ((contrEquiv1 dot_S50000x96_S96x96_S50000x96_1_0_0_1_n_n 96 rfl rfl).symm k) = ix2 n k := funext fun a => Fin.ext (by
    match a with
    | ⟨0, _⟩ => exact lhs_main_v57_0 _ _
    | ⟨1, _⟩ => exact (lhs_main_v57_1 _ _).trans hk)
  have er : dot_S50000x96_S96x96_S50000x96_1_0_0_1_n_n.rhsIdx (ix2 n j) ((contrEquiv1 dot_S50000x96_S96x96_S50000x96_1_0_0_1_n_n 96 rfl rfl).symm k) = ix2 k j := funext fun a => Fin.ext (by
    match a with
    | ⟨0, _⟩ => exact (rhs_main_v57_0 _ _).trans hk
    | ⟨1, _⟩ => exact rhs_main_v57_1 _ _)
  rw [el, er]
  show X (ix2 n k) * broadcastInDim S50000x96 ![0, 1] bcast_S50000x1_S50000x96_0_1 ci (ix2 n k) * W (ix2 k j) = _
  rw [broadcastInDim_apply _ bcast_S50000x1_S50000x96_0_1 ci (ix2 n k) (ix2 n (0 : Fin 1)) (fun a => match a with
    | ⟨0, _⟩ => by show n.val = if (50000 : Nat) = 1 then 0 else n.val; rw [if_neg (by decide)]
    | ⟨1, _⟩ => by show 0 = if (1 : Nat) = 1 then 0 else k.val; rw [if_pos rfl])]

end Host

/-! ## Region 1: one block of the hidden layer -/

section Kernel
open Cert.KernelIdeal Cert.KernelIdeal.Gen
open Idealize.ShloMosaic.Pipeline (Dat)

theorem hz2 : (![0, 0] : Fin 2 → Nat) = fun _ => 0 := funext fun a => by fin_cases a <;> rfl

theorem klhs2_0 (i : S2000x96.Idx) (q : dot_S2000x96_S96x96_S2000x96_1_0_0_1_n_n.contr.Idx) : (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
theorem klhs2_1 (i : S2000x96.Idx) (q : dot_S2000x96_S96x96_S2000x96_1_0_0_1_n_n.contr.Idx) : (dot_S2000x96_S96x96_S2000x96_1_0_0_1_n_n.lhsIdx i q 1).val = (q ⟨0, by decide⟩).val :=
  dot_S2000x96_S96x96_S2000x96_1_0_0_1_n_n.lhsIdx_val_of_single rfl i q
theorem krhs2_0 (i : S2000x96.Idx) (q : dot_S2000x96_S96x96_S2000x96_1_0_0_1_n_n.contr.Idx) : (dot_S2000x96_S96x96_S2000x96_1_0_0_1_n_n.rhsIdx i q 0).val = (q ⟨0, by decide⟩).val :=
  dot_S2000x96_S96x96_S2000x96_1_0_0_1_n_n.rhsIdx_val_of_single rfl i q
theorem krhs2_1 (i : S2000x96.Idx) (q : dot_S2000x96_S96x96_S2000x96_1_0_0_1_n_n.contr.Idx) : (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- Entry `(p, j)` of the block the body stores: the sum over `k` of `x0 p k · x1 p · x3 k j`, plus `x4 j`, cut below at zero, times
    `x2 p` (the product into a zero accumulator is the plain sum; the change of format on the way in is the identity). -/
theorem pay2_apply (x0 : Vec Ideal S2000x96 .f32) (x1 x2 : Vec Ideal S2000x1 .f32) (x3 : Vec Ideal S96x96 .f32) (x4 : Vec Ideal S1x96 .f32)
    (p : Fin 2000) (j : Fin 96) :
    k1_pay1 x0 x1 x3 x4 x2 (ix2 p j)
      = max ((∑ k : Fin 96, (x0 (ix2 p k) * x1 (ix2 p (0 : Fin 1))) * x3 (ix2 k j)) + x4 (ix2 (0 : Fin 1) j)) (Ideal.ofBits .f32 0x00000000#32)
        * x2 (ix2 p (0 : Fin 1)) := by
  unfold k1_pay1
  simp only [shapeCast_self]
  rw [mulf_apply, maximumf_apply, addf_apply]
  have hx2 : broadcastTo S2000x96 x2 broadcasts_S2000x1_S2000x96 (ix2 p j) = x2 (ix2 p (0 : Fin 1)) :=
    broadcastTo_apply x2 broadcasts_S2000x1_S2000x96 (ix2 p j) (ix2 p (0 : Fin 1)) (fun a => match a with
      | ⟨0, _⟩ => by show p.val = if (2000 : Nat) = 1 then 0 else p.val; rw [if_neg (by decide)]
      | ⟨1, _⟩ => by show 0 = if (1 : Nat) = 1 then 0 else j.val; rw [if_pos rfl])
  have hx4 : broadcastTo S2000x96 x4 broadcasts_S1x96_S2000x96 (ix2 p j) = x4 (ix2 (0 : Fin 1) j) :=
    broadcastTo_apply x4 broadcasts_S1x96_S2000x96 (ix2 p j) (ix2 (0 : Fin 1) j) (fun a => match a with
      | ⟨0, _⟩ => by show 0 = if (1 : Nat) = 1 then 0 else p.val; rw [if_pos rfl]
      | ⟨1, _⟩ => by show j.val = if (96 : Nat) = 1 then 0 else j.val; rw [if_neg (by decide)])
  rw [hx2, hx4]
  refine congrArg (fun s => max (s + x4 (ix2 (0 : Fin 1) j)) (Ideal.ofBits .f32 0x00000000#32) * x2 (ix2 p (0 : Fin 1))) ?_
  refine (Ideal.matmul_constant_zero_apply dot_S2000x96_S96x96_S2000x96_1_0_0_1_n_n none _ _ (ix2 p j)).trans ?_
  rw [← Equiv.sum_comp (contrEquiv1 dot_S2000x96_S96x96_S2000x96_1_0_0_1_n_n 96 rfl rfl).symm]
  refine Finset.sum_congr rfl fun k _ => ?_
  have hk := contrEquiv1_symm_val dot_S2000x96_S96x96_S2000x96_1_0_0_1_n_n 96 rfl rfl k
  have el : dot_S2000x96_S96x96_S2000x96_1_0_0_1_n_n.lhsIdx (ix2 p j) ((contrEquiv1 dot_S2000x96_S96x96_S2000x96_1_0_0_1_n_n 96 rfl rfl).symm k) = ix2 p k := funext fun a => Fin.ext (by
    match a with
    | ⟨0, _⟩ => exact klhs2_0 _ _
    | ⟨1, _⟩ => exact (klhs2_1 _ _).trans hk)
  have er : dot_S2000x96_S96x96_S2000x96_1_0_0_1_n_n.rhsIdx (ix2 p j) ((contrEquiv1 dot_S2000x96_S96x96_S2000x96_1_0_0_1_n_n 96 rfl rfl).symm k) = ix2 k j := funext fun a => Fin.ext (by
    match a with
    | ⟨0, _⟩ => exact (krhs2_0 _ _).trans hk
    | ⟨1, _⟩ => exact krhs2_1 _ _)
  rw [el, er]
  show x0 (ix2 p k) * broadcastTo S2000x96 x1 broadcasts_S2000x1_S2000x96 (ix2 p k) * x3 (ix2 k j) = _
  rw [broadcastTo_apply x1 broadcasts_S2000x1_S2000x96 (ix2 p k) (ix2 p (0 : Fin 1)) (fun a => match a with
    | ⟨0, _⟩ => by show p.val = if (2000 : Nat) = 1 then 0 else p.val; rw [if_neg (by decide)]
    | ⟨1, _⟩ => by show 0 = if (1 : Nat) = 1 then 0 else k.val; rw [if_pos rfl])]

end Kernel

/-! ## The windows' blocks as rows of the arrays -/

section Blocks
open Cert.KernelIdeal Cert.KernelIdeal.Gen
open Idealize.ShloMosaic.Pipeline (Dat)

variable (V : (c : Dev nD) → (b : Ref sig .tc) → Buf (Elt Ideal) ((c : Thread nD τ).loc b))

/-- Region 1's index maps, decided over the grid: the row-blocked windows are at block row `t`, the weight's and the bias's
    windows at block (0, 0). -/
theorem idx2 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` of the aggregated features is row `2000 t + p` of the array. -/
theorem blk2_0 (c : Dev nD) (t : Fin cfg1.N) (p : Fin 2000) (k : Fin 96) (n : Fin 50000) (hn : n.val = 2000 * t.val + p.val) :
    (iblk1 V c 0 t : Vec Ideal S2000x96 .f32) (ix2 p k) = (V c main_v45 : S50000x96.Idx → Elt Ideal .f32) (ix2 n k) := by
  obtain ⟨e0, e1, -⟩ := idx2 t
  unfold iblk1
  rw [View.read_apply]
  show V c main_v45 _ = V c main_v45 _
  refine congrArg (V c main_v45) (funext fun a => Fin.ext ?_)
  match a with
  | ⟨0, _⟩ => show win1_0.index t (0 : Fin 2) * 2000 + 1 * p.val = n.val; rw [e0, hn]; omega
  | ⟨1, _⟩ => show win1_0.index t (1 : Fin 2) * 96 + 1 * k.val = k.val; rw [e1]; omega

/-- Row `p` of block `t` of the inner scaling column is row `2000 t + p` of the column. -/
theorem blk2_1 (c : Dev nD) (t : Fin cfg1.N) (p : Fin 2000) (n : Fin 50000) (hn : n.val = 2000 * t.val + p.val) :
    (iblk1 V c 1 t : Vec Ideal S2000x1 .f32) (ix2 p (0 : Fin 1)) = (V c main_v13 : S50000x1.Idx → Elt Ideal .f32) (ix2 n (0 : Fin 1)) := by
  obtain ⟨-, -, e2, e3, -⟩ := idx2 t
  unfold iblk1
  rw [View.read_apply]
  show V c main_v13 _ = V c main_v13 _
  refine congrArg (V c main_v13) (funext fun a => Fin.ext ?_)
  match a with
  | ⟨0, _⟩ => show win1_1.index t (0 : Fin 2) * 2000 + 1 * p.val = n.val; rw [e2, hn]; omega
  | ⟨1, _⟩ => show win1_1.index t (1 : Fin 2) * 1 + 1 * 0 = 0; rw [e3]

/-- Row `p` of block `t` of the outer scaling column is row `2000 t + p` of the column. -/
theorem blk2_2 (c : Dev nD) (t : Fin cfg1.N) (p : Fin 2000) (n : Fin 50000) (hn : n.val = 2000 * t.val + p.val) :
    (iblk1 V c 2 t : Vec Ideal S2000x1 .f32) (ix2 p (0 : Fin 1)) = (V c main_v14 : S50000x1.Idx → Elt Ideal .f32) (ix2 n (0 : Fin 1)) := by
  obtain ⟨-, -, -, -, e2, e3, -⟩ := idx2 t
  unfold iblk1
  rw [View.read_apply]
  show V c main_v14 _ = V c main_v14 _
  refine congrArg (V c main_v14) (funext fun a => Fin.ext ?_)
  match a with
  | ⟨0, _⟩ => show win1_2.index t (0 : Fin 2) * 2000 + 1 * p.val = n.val; rw [e2, hn]; omega
  | ⟨1, _⟩ => show win1_2.index t (1 : Fin 2) * 1 + 1 * 0 = 0; rw [e3]

/-- The weight's one block is the weight. -/
theorem blk2_3 (c : Dev nD) (t : Fin cfg1.N) (k : Fin 96) (j : Fin 96) :
    (iblk1 V c 3 t : Vec Ideal S96x96 .f32) (ix2 k j) = (V c main_arg6 : S96x96.Idx → Elt Ideal .f32) (ix2 k j) := by
  obtain ⟨-, -, -, -, -, -, e4, e5, -⟩ := idx2 t
  unfold iblk1
  rw [View.read_apply]
  show V c main_arg6 _ = V c main_arg6 _
  refine congrArg (V c main_arg6) (funext fun a => Fin.ext ?_)
  match a with
  | ⟨0, _⟩ => show win1_3.index t (0 : Fin 2) * 96 + 1 * k.val = k.val; rw [e4]; omega
  | ⟨1, _⟩ => show win1_3.index t (1 : Fin 2) * 96 + 1 * j.val = j.val; rw [e5]; omega

/-- The bias row's one block is the row. -/
theorem blk2_4 (c : Dev nD) (t : Fin cfg1.N) (j : Fin 96) :
    (iblk1 V c 4 t : Vec Ideal S1x96 .f32) (ix2 (0 : Fin 1) j) = (V c main_v46 : S1x96.Idx → Elt Ideal .f32) (ix2 (0 : Fin 1) j) := by
  obtain ⟨-, -, -, -, -, -, -, -, e6, e7, -⟩ := idx2 t
  unfold iblk1
  rw [View.read_apply]
  show V c main_v46 _ = V c main_v46 _
  refine congrArg (V c main_v46) (funext fun a => Fin.ext ?_)
  match a with
  | ⟨0, _⟩ => show win1_4.index t (0 : Fin 2) * 1 + 1 * 0 = 0; rw [e6]
  | ⟨1, _⟩ => show win1_4.index t (1 : Fin 2) * 96 + 1 * j.val = j.val; rw [e7]; omega

/-- Entry `(p, j)` of what point `t` stores is entry `(2000 t + p, j)` of the hidden layer of the whole arrays. -/
theorem stored2 (c : Dev nD) (t : Fin cfg1.N) (p : Fin 2000) (j : Fin 96) (n : Fin 50000) (hn : n.val = 2000 * t.val + p.val) :
    k1_pay1 (iblk1 V c 0 t) (iblk1 V c 1 t) (iblk1 V c 3 t) (iblk1 V c 4 t) (iblk1 V c 2 t) (ix2 p j)
      = conv96 (V c main_v45) (V c main_v13) (V c main_v14) (V c main_arg6) (V c main_v46) (ix2 n j) := by
  refine (pay2_apply _ _ _ _ _ p j).trans ?_
  refine Eq.trans ?_ (conv96_apply _ _ _ _ _ n j).symm
  rw [blk2_4 V c t j, blk2_2 V c t p n hn]
  refine congrArg (fun s => max (s + _) _ * _) (Finset.sum_congr rfl fun k _ => ?_)
  rw [blk2_0 V c t p k n hn, blk2_1 V c t p n hn, blk2_3 V c t k j]

end Blocks

end Cert.GCN

end
-- ==== Proof.Region2.lean ====
import proofs.«173833_j3513283248845_1_alg».proof.Proof.Layer2

noncomputable section

open scoped BigOperators
open Idealize.ShloMosaic Idealize.ShloMosaic.TcCoe Idealize.ShloMosaic.ValueIdx Idealize.SL.Sem

namespace Cert.GCN

/-! ## Region 1: from the blocks to the array -/

section Region
open Cert.KernelIdeal Cert.KernelIdeal.Gen
open Idealize.ShloMosaic.Pipeline (Dat)

variable (V : (c : Dev nD) → (b : Ref sig .tc) → Buf (Elt Ideal) ((c : Thread nD τ).loc b))

/-- What point `t` writes back is block `t` of the hidden layer of the arrays the region finds. -/
theorem flushed2 (c : Dev nD) (t : Fin cfg1.N) :
    (dat1 V c).flushed 5 t = ((cfg1.win 5).blk t).view.read (Elt Ideal) (conv96 (V c main_v45) (V c main_v13) (V c main_v14) (V c main_arg6) (V c main_v46)) := by
  show (cfg1.win 5).cut (grid1.coords t) ((dat1 V c).after 5 t) = _
  rw [after1_5]
  unfold out1_5
  rw [View.canon_unit_zero hz2]
  simp only [View.ld_unit_zero (S := S2000x96) hz2, View.ld_unit_zero (S := S2000x1) hz2, View.ld_unit_zero (S := S96x96) hz2, View.ld_unit_zero (S := S1x96) hz2]
  funext y
  obtain ⟨p, j, rfl⟩ : ∃ (p : Fin 2000) (j : Fin 96), y = ix2 p j := ⟨y 0, y 1, eq_ix2 y⟩
  obtain ⟨-, -, -, -, -, -, -, -, -, -, e8, e9⟩ := idx2 t
  have ht : t.val < 25 := lt_of_lt_of_eq t.isLt N_1
  rw [View.read_apply]
  refine (stored2 V c t p j ⟨2000 * t.val + p.val, by omega⟩ rfl).trans ?_
  refine congrArg (conv96 (V c main_v45) (V c main_v13) (V c main_v14) (V c main_arg6) (V c main_v46)) (funext fun a => Fin.ext ?_)
  match a with
  | ⟨0, _⟩ => show 2000 * t.val + p.val = win1_5.index t (0 : Fin 2) * 2000 + 1 * p.val; rw [e8]; omega
  | ⟨1, _⟩ => show j.val = win1_5.index t (1 : Fin 2) * 96 + 1 * j.val; rw [e9]; omega

/-- Every row of the result is in the block of the point its row index divided by 2000 names. -/
theorem cover2 (i : S50000x96.Idx) : ∃ t : Fin cfg1.N, (cfg1.win 5).flush t = true ∧ i ∈ ((cfg1.win 5).blk t).view.set := by
  have h0 : (i 0).val < 50000 := (i 0).isLt
  have h1 : (i 1).val < 96 := (i 1).isLt
  have hN : cfg1.N = 25 := N_1
  obtain ⟨t, htv⟩ : ∃ t : Fin cfg1.N, t.val = (i 0).val / 2000 := ⟨⟨(i 0).val / 2000, by rw [hN]; omega⟩, rfl⟩
  obtain ⟨-, -, -, -, -, -, -, -, -, -, e8, e9⟩ := idx2 t
  refine ⟨t, flush1_5 t, ?_⟩
  show i ∈ ((View.whole main_v47).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; rw [e8, htv]; omega
  | ⟨1, _⟩ => show win1_5.index t (1 : Fin 2) * 96 ≤ (i 1).val ∧ (i 1).val < win1_5.index t (1 : Fin 2) * 96 + 96; rw [e9]; omega

/-- REGION 1'S RESULT: the hidden layer of the aggregated features, the two scaling columns, the weight and the bias row as
    the region finds them. -/
theorem region2 (c : Dev nD) :
    (dat1 V c).arrAt 5 cfg1.N = conv96 (V c main_v45) (V c main_v13) (V c main_v14) (V c main_arg6) (V c main_v46) :=
  (dat1 V c).arrAt_eq_of_cover 5 _ (fun t _ => flushed2 V c t) cover2

end Region

end Cert.GCN

end
-- ==== Proof.Layer3.lean ====
import proofs.«173833_j3513283248845_1_alg».proof.Defs
import proofs.«173833_j3513283248845_1_alg».proof.Proof.Spec
import proofs.«173833_j3513283248845_1_alg».proof.Proof.Gen.KernelIdeal.Frame
import proofs.«173833_j3513283248845_1_alg».proof.Proof.Gen.ReferenceIdeal.Read
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx Idealize.SL.Sem

namespace Cert.GCN

/-! ## The last layer on whole arrays: `(X · c) W + b`, the column `c` scaling the rows of `X` -/

section Host
open Cert.ReferenceIdeal Cert.ReferenceIdeal.Gen Cert.ReferenceIdeal.Read

/-- Entry `(n, j)` of the linear layer: the sum over `k` of `X n k · ci n · W k j`, plus `b j`. -/
theorem lin50_apply (X : FVec Ideal S50000x96 .f32) (ci : FVec Ideal S50000x1 .f32) (W : FVec Ideal S96x50 .f32) (b : FVec Ideal S1x50 .f32)
    (n : Fin 50000) (j : Fin 50) :
    lin50 X ci W b (ix2 n j) = (∑ k : Fin 96, (X (ix2 n k) * ci (ix2 n (0 : Fin 1))) * W (ix2 k j)) + b (ix2 (0 : Fin 1) j) := by
  unfold lin50
  show Host.dotGeneral dot_S50000x96_S96x50_S50000x50_1_0_0_1_n_n none _ W (ix2 n j) + broadcastInDim S50000x50 ![0, 1] bcast_S1x50_S50000x50_0_1 b (ix2 n j) = _
  congr 1
  · simp only [Host.dotGeneral]
    rw [Ideal.dotGeneral_apply, ← Equiv.sum_comp (contrEquiv1 dot_S50000x96_S96x50_S50000x50_1_0_0_1_n_n 96 rfl rfl).symm]
    refine Finset.sum_congr rfl fun k _ => ?_
    have hk := contrEquiv1_symm_val dot_S50000x96_S96x50_S50000x50_1_0_0_1_n_n 96 rfl rfl k
    have el : dot_S50000x96_S96x50_S50000x50_1_0_0_1_n_n.lhsIdx (ix2 n j) ((contrEquiv1 dot_S50000x96_S96x50_S50000x50_1_0_0_1_n_n 96 rfl rfl).symm k) = ix2 n k := funext fun a => Fin.ext (by
      match a with
      | ⟨0, _⟩ => exact lhs_main_v78_0 _ _
      | ⟨1, _⟩ => exact (lhs_main_v78_1 _ _).trans hk)
    have er : dot_S50000x96_S96x50_S50000x50_1_0_0_1_n_n.rhsIdx (ix2 n j) ((contrEquiv1 dot_S50000x96_S96x50_S50000x50_1_0_0_1_n_n 96 rfl rfl).symm k) = ix2 k j := funext fun a => Fin.ext (by
      match a with
      | ⟨0, _⟩ => exact (rhs_main_v78_0 _ _).trans hk
      | ⟨1, _⟩ => exact rhs_main_v78_1 _ _)
    rw [el, er]
    show X (ix2 n k) * broadcastInDim S50000x96 ![0, 1] bcast_S50000x1_S50000x96_0_1 ci (ix2 n k) * W (ix2 k j) = _
    rw [broadcastInDim_apply _ bcast_S50000x1_S50000x96_0_1 ci (ix2 n k) (ix2 n (0 : Fin 1)) (fun a => match a with
      | ⟨0, _⟩ => by show n.val = if (50000 : Nat) = 1 then 0 else n.val; rw [if_neg (by decide)]
      | ⟨1, _⟩ => by show 0 = if (1 : Nat) = 1 then 0 else k.val; rw [if_pos rfl])]
  · exact broadcastInDim_apply _ bcast_S1x50_S50000x50_0_1 b (ix2 n j) (ix2 (0 : Fin 1) j) (fun a => match a with
      | ⟨0, _⟩ => by show 0 = if (1 : Nat) = 1 then 0 else n.val; rw [if_pos rfl]
      | ⟨1, _⟩ => by show j.val = if (50 : Nat) = 1 then 0 else j.val; rw [if_neg (by decide)])

end Host

/-! ## The last region: what it writes back is the linear layer of the arrays it finds -/

section Kernel
open Cert.KernelIdeal Cert.KernelIdeal.Gen
open Idealize.ShloMosaic.Pipeline (Dat)

theorem hz : (![0, 0] : Fin 2 → Nat) = fun _ => 0 := funext fun a => by fin_cases a <;> rfl

theorem klhs3_0 (i : S2000x50.Idx) (q : dot_S2000x96_S96x50_S2000x50_1_0_0_1_n_n.contr.Idx) :
    (dot_S2000x96_S96x50_S2000x50_1_0_0_1_n_n.lhsIdx i q 0).val = (i 0).val := by
  unfold DotDims.lhsIdx
  rw [dif_neg (show ¬(0 : Fin S2000x96.rank) ∈ dot_S2000x96_S96x50_S2000x50_1_0_0_1_n_n.lhsBatch by decide), dif_pos (show (0 : Fin S2000x96.rank) ∈ dot_S2000x96_S96x50_S2000x50_1_0_0_1_n_n.lhsNonContracting by decide)]
  rfl
theorem klhs3_1 (i : S2000x50.Idx) (q : dot_S2000x96_S96x50_S2000x50_1_0_0_1_n_n.contr.Idx) :
    (dot_S2000x96_S96x50_S2000x50_1_0_0_1_n_n.lhsIdx i q 1).val = (q ⟨0, by decide⟩).val :=
  dot_S2000x96_S96x50_S2000x50_1_0_0_1_n_n.lhsIdx_val_of_single rfl i q
theorem krhs3_0 (i : S2000x50.Idx) (q : dot_S2000x96_S96x50_S2000x50_1_0_0_1_n_n.contr.Idx) :
    (dot_S2000x96_S96x50_S2000x50_1_0_0_1_n_n.rhsIdx i q 0).val = (q ⟨0, by decide⟩).val :=
  dot_S2000x96_S96x50_S2000x50_1_0_0_1_n_n.rhsIdx_val_of_single rfl i q
theorem krhs3_1 (i : S2000x50.Idx) (q : dot_S2000x96_S96x50_S2000x50_1_0_0_1_n_n.contr.Idx) :
    (dot_S2000x96_S96x50_S2000x50_1_0_0_1_n_n.rhsIdx i q 1).val = (i 1).val := by
  unfold DotDims.rhsIdx
  rw [dif_neg (show ¬(1 : Fin S96x50.rank) ∈ dot_S2000x96_S96x50_S2000x50_1_0_0_1_n_n.rhsBatch by decide), dif_pos (show (1 : Fin S96x50.rank) ∈ dot_S2000x96_S96x50_S2000x50_1_0_0_1_n_n.rhsNonContracting by decide)]
  rfl

/-- Entry `(p, j)` of the block the body stores: the sum over `k` of `x0 p k · x1 p · x3 k j`, plus `x4 j` (the product into a zero
    accumulator is the plain sum; the change of format on the way in is the identity). -/
theorem pay3_apply (x0 : Vec Ideal S2000x96 .f32) (x1 : Vec Ideal S2000x1 .f32) (x3 : Vec Ideal S96x50 .f32) (x4 : Vec Ideal S1x50 .f32)
    (p : Fin 2000) (j : Fin 50) :
    k2_pay1 x0 x1 x3 x4 (ix2 p j) = (∑ k : Fin 96, (x0 (ix2 p k) * x1 (ix2 p (0 : Fin 1))) * x3 (ix2 k j)) + x4 (ix2 (0 : Fin 1) j) := by
  unfold k2_pay1
  simp only [shapeCast_self]
  rw [addf_apply]
  congr 1
  · refine (Ideal.matmul_constant_zero_apply dot_S2000x96_S96x50_S2000x50_1_0_0_1_n_n none _ _ (ix2 p j)).trans ?_
    rw [← Equiv.sum_comp (contrEquiv1 dot_S2000x96_S96x50_S2000x50_1_0_0_1_n_n 96 rfl rfl).symm]
    refine Finset.sum_congr rfl fun k _ => ?_
    have hk := contrEquiv1_symm_val dot_S2000x96_S96x50_S2000x50_1_0_0_1_n_n 96 rfl rfl k
    have el : dot_S2000x96_S96x50_S2000x50_1_0_0_1_n_n.lhsIdx (ix2 p j) ((contrEquiv1 dot_S2000x96_S96x50_S2000x50_1_0_0_1_n_n 96 rfl rfl).symm k) = ix2 p k := funext fun a => Fin.ext (by
      match a with
      | ⟨0, _⟩ => exact klhs3_0 _ _
      | ⟨1, _⟩ => exact (klhs3_1 _ _).trans hk)
    have er : dot_S2000x96_S96x50_S2000x50_1_0_0_1_n_n.rhsIdx (ix2 p j) ((contrEquiv1 dot_S2000x96_S96x50_S2000x50_1_0_0_1_n_n 96 rfl rfl).symm k) = ix2 k j := funext fun a => Fin.ext (by
      match a with
      | ⟨0, _⟩ => exact (krhs3_0 _ _).trans hk
      | ⟨1, _⟩ => exact krhs3_1 _ _)
    rw [el, er]
    show x0 (ix2 p k) * broadcastTo S2000x96 x1 broadcasts_S2000x1_S2000x96 (ix2 p k) * x3 (ix2 k j) = _
    rw [broadcastTo_apply x1 broadcasts_S2000x1_S2000x96 (ix2 p k) (ix2 p (0 : Fin 1)) (fun a => match a with
      | ⟨0, _⟩ => by show p.val = if (2000 : Nat) = 1 then 0 else p.val; rw [if_neg (by decide)]
      | ⟨1, _⟩ => by show 0 = if (1 : Nat) = 1 then 0 else k.val; rw [if_pos rfl])]
  · exact broadcastTo_apply x4 broadcasts_S1x50_S2000x50 (ix2 p j) (ix2 (0 : Fin 1) j) (fun a => match a with
      | ⟨0, _⟩ => by show 0 = if (1 : Nat) = 1 then 0 else p.val; rw [if_pos rfl]
      | ⟨1, _⟩ => by show j.val = if (50 : Nat) = 1 then 0 else j.val; rw [if_neg (by decide)])

end Kernel

/-! ## From the blocks to the array -/

section Region
open Cert.KernelIdeal Cert.KernelIdeal.Gen
open Idealize.ShloMosaic.Pipeline (Dat)

variable (V : (c : Dev nD) → (b : Ref sig .tc) → Buf (Elt Ideal) ((c : Thread nD τ).loc b))

/-- The last region's index maps, decided over the grid: the row-blocked windows are at block row `t`, the weight's and the
    bias's windows at block (0, 0). -/
theorem idx3 : ∀ t : Fin cfg2.N, win2_0.index t (0 : Fin 2) = t.val ∧ win2_0.index t (1 : Fin 2) = 0
    ∧ win2_1.index t (0 : Fin 2) = t.val ∧ win2_1.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of block `t` of the aggregated features is row `2000 t + p` of the array. -/
theorem blk3_0 (c : Dev nD) (t : Fin cfg2.N) (p : Fin 2000) (k : Fin 96) (n : Fin 50000) (hn : n.val = 2000 * t.val + p.val) :
    (iblk2 V c 0 t : Vec Ideal S2000x96 .f32) (ix2 p k) = (V c main_v57 : S50000x96.Idx → Elt Ideal .f32) (ix2 n k) := by
  obtain ⟨e0, e1, -⟩ := idx3 t
  unfold iblk2
  rw [View.read_apply]
  show V c main_v57 _ = V c main_v57 _
  refine congrArg (V c main_v57) (funext fun a => Fin.ext ?_)
  match a with
  | ⟨0, _⟩ => show win2_0.index t (0 : Fin 2) * 2000 + 1 * p.val = n.val; rw [e0, hn]; omega
  | ⟨1, _⟩ => show win2_0.index t (1 : Fin 2) * 96 + 1 * k.val = k.val; rw [e1]; omega

/-- Row `p` of block `t` of the scaling column is row `2000 t + p` of the column. -/
theorem blk3_1 (c : Dev nD) (t : Fin cfg2.N) (p : Fin 2000) (n : Fin 50000) (hn : n.val = 2000 * t.val + p.val) :
    (iblk2 V c 1 t : Vec Ideal S2000x1 .f32) (ix2 p (0 : Fin 1)) = (V c main_v13 : S50000x1.Idx → Elt Ideal .f32) (ix2 n (0 : Fin 1)) := by
  obtain ⟨-, -, e2, e3, -⟩ := idx3 t
  unfold iblk2
  rw [View.read_apply]
  show V c main_v13 _ = V c main_v13 _
  refine congrArg (V c main_v13) (funext fun a => Fin.ext ?_)
  match a with
  | ⟨0, _⟩ => show win2_1.index t (0 : Fin 2) * 2000 + 1 * p.val = n.val; rw [e2, hn]; omega
  | ⟨1, _⟩ => show win2_1.index t (1 : Fin 2) * 1 + 1 * 0 = 0; rw [e3]

/-- The weight's one block is the weight. -/
theorem blk3_3 (c : Dev nD) (t : Fin cfg2.N) (k : Fin 96) (j : Fin 50) :
    (iblk2 V c 3 t : Vec Ideal S96x50 .f32) (ix2 k j) = (V c main_arg8 : S96x50.Idx → Elt Ideal .f32) (ix2 k j) := by
  obtain ⟨-, -, -, -, e4, e5, -⟩ := idx3 t
  unfold iblk2
  rw [View.read_apply]
  show V c main_arg8 _ = V c main_arg8 _
  refine congrArg (V c main_arg8) (funext fun a => Fin.ext ?_)
  match a with
  | ⟨0, _⟩ => show win2_3.index t (0 : Fin 2) * 96 + 1 * k.val = k.val; rw [e4]; omega
  | ⟨1, _⟩ => show win2_3.index t (1 : Fin 2) * 50 + 1 * j.val = j.val; rw [e5]; omega

/-- The bias row's one block is the row. -/
theorem blk3_4 (c : Dev nD) (t : Fin cfg2.N) (j : Fin 50) :
    (iblk2 V c 4 t : Vec Ideal S1x50 .f32) (ix2 (0 : Fin 1) j) = (V c main_v58 : S1x50.Idx → Elt Ideal .f32) (ix2 (0 : Fin 1) j) := by
  obtain ⟨-, -, -, -, -, -, e6, e7, -⟩ := idx3 t
  unfold iblk2
  rw [View.read_apply]
  show V c main_v58 _ = V c main_v58 _
  refine congrArg (V c main_v58) (funext fun a => Fin.ext ?_)
  match a with
  | ⟨0, _⟩ => show win2_4.index t (0 : Fin 2) * 1 + 1 * 0 = 0; rw [e6]
  | ⟨1, _⟩ => show win2_4.index t (1 : Fin 2) * 50 + 1 * j.val = j.val; rw [e7]; omega

/-- Entry `(p, j)` of what point `t` stores is entry `(2000 t + p, j)` of the linear layer of the whole arrays. -/
theorem stored3 (c : Dev nD) (t : Fin cfg2.N) (p : Fin 2000) (j : Fin 50) (n : Fin 50000) (hn : n.val = 2000 * t.val + p.val) :
    k2_pay1 (iblk2 V c 0 t) (iblk2 V c 1 t) (iblk2 V c 3 t) (iblk2 V c 4 t) (ix2 p j)
      = lin50 (V c main_v57) (V c main_v13) (V c main_arg8) (V c main_v58) (ix2 n j) := by
  refine (pay3_apply _ _ _ _ p j).trans ?_
  refine Eq.trans ?_ (lin50_apply _ _ _ _ n j).symm
  rw [blk3_4 V c t j]
  refine congrArg (· + _) (Finset.sum_congr rfl fun k _ => ?_)
  rw [blk3_0 V c t p k n hn, blk3_1 V c t p n hn, blk3_3 V c t k j]

end Region

end Cert.GCN

end
-- ==== Proof.Region3.lean ====
import proofs.«173833_j3513283248845_1_alg».proof.Proof.Layer3

noncomputable section

open scoped BigOperators
open Idealize.ShloMosaic Idealize.ShloMosaic.TcCoe Idealize.ShloMosaic.ValueIdx Idealize.SL.Sem

namespace Cert.GCN

section Region
open Cert.KernelIdeal Cert.KernelIdeal.Gen
open Idealize.ShloMosaic.Pipeline (Dat)

variable (V : (c : Dev nD) → (b : Ref sig .tc) → Buf (Elt Ideal) ((c : Thread nD τ).loc b))

/-- What point `t` writes back is block `t` of the linear layer of the arrays the region finds. -/
theorem flushed3 (c : Dev nD) (t : Fin cfg2.N) :
    (dat2 V c).flushed 5 t = ((cfg2.win 5).blk t).view.read (Elt Ideal) (lin50 (V c main_v57) (V c main_v13) (V c main_arg8) (V c main_v58)) := by
  show (cfg2.win 5).cut (grid2.coords t) ((dat2 V c).after 5 t) = _
  rw [after2_5]
  unfold out2_5
  rw [View.canon_unit_zero hz]
  simp only [View.ld_unit_zero (S := S2000x96) hz, View.ld_unit_zero (S := S2000x1) hz, View.ld_unit_zero (S := S96x50) hz, View.ld_unit_zero (S := S1x50) hz]
  funext y
  obtain ⟨p, j, rfl⟩ : ∃ (p : Fin 2000) (j : Fin 50), y = ix2 p j := ⟨y 0, y 1, eq_ix2 y⟩
  obtain ⟨-, -, -, -, -, -, -, -, e8, e9⟩ := idx3 t
  have ht : t.val < 25 := lt_of_lt_of_eq t.isLt N_2
  rw [View.read_apply]
  refine (stored3 V c t p j ⟨2000 * t.val + p.val, by omega⟩ rfl).trans ?_
  refine congrArg (lin50 (V c main_v57) (V c main_v13) (V c main_arg8) (V c main_v58)) (funext fun a => Fin.ext ?_)
  match a with
  | ⟨0, _⟩ => show 2000 * t.val + p.val = win2_5.index t (0 : Fin 2) * 2000 + 1 * p.val; rw [e8]; omega
  | ⟨1, _⟩ => show j.val = win2_5.index t (1 : Fin 2) * 50 + 1 * j.val; rw [e9]; omega

/-- Every row of the result is in the block of the point its row index divided by 2000 names. -/
theorem cover3 (i : S50000x50.Idx) : ∃ t : Fin cfg2.N, (cfg2.win 5).flush t = true ∧ i ∈ ((cfg2.win 5).blk t).view.set := by
  have h0 : (i 0).val < 50000 := (i 0).isLt
  have h1 : (i 1).val < 50 := (i 1).isLt
  have hN : cfg2.N = 25 := N_2
  obtain ⟨t, htv⟩ : ∃ t : Fin cfg2.N, t.val = (i 0).val / 2000 := ⟨⟨(i 0).val / 2000, by rw [hN]; omega⟩, rfl⟩
  obtain ⟨-, -, -, -, -, -, -, -, e8, e9⟩ := idx3 t
  refine ⟨t, flush2_5 t, ?_⟩
  show i ∈ ((View.whole main_v59).slice (win2_5.rect t)).set
  rw [View.set_slice_whole, Rect.mem_set_unit]
  intro a
  match a with
  | ⟨0, _⟩ => show win2_5.index t (0 : Fin 2) * 2000 ≤ (i 0).val ∧ (i 0).val < win2_5.index t (0 : Fin 2) * 2000 + 2000; rw [e8, htv]; omega
  | ⟨1, _⟩ => show win2_5.index t (1 : Fin 2) * 50 ≤ (i 1).val ∧ (i 1).val < win2_5.index t (1 : Fin 2) * 50 + 50; rw [e9]; omega

/-- THE LAST REGION'S RESULT: the linear layer of the aggregated features, the scaling column, the weight and the bias
    row as the region finds them. -/
theorem region3 (c : Dev nD) :
    (dat2 V c).arrAt 5 cfg2.N = lin50 (V c main_v57) (V c main_v13) (V c main_arg8) (V c main_v58) :=
  (dat2 V c).arrAt_eq_of_cover 5 _ (fun t _ => flushed3 V c t) cover3

end Region

end Cert.GCN

end
-- ==== Proof.Boundaries.lean ====
import proofs.«173833_j3513283248845_1_alg».proof.Proof.Stretches
import proofs.«173833_j3513283248845_1_alg».proof.Proof.Region1
import proofs.«173833_j3513283248845_1_alg».proof.Proof.Region2
import proofs.«173833_j3513283248845_1_alg».proof.Proof.Region3
import proofs.«173833_j3513283248845_1_alg».proof.Proof.Gen.KernelIdeal.Frame

noncomputable section

open scoped BigOperators
open Idealize.ShloMosaic Idealize.ShloMosaic.TcCoe Idealize.SL.Sem Idealize.ShloMosaic.StableHlo

namespace Cert.GCN

open Cert.KernelIdeal Cert.KernelIdeal.Gen

/-! ## The kernel program's buffers at each boundary between a stretch and a region, as functions of the arguments

The program is stretch, region, stretch, region, stretch, region. The contents at the seven boundaries are a fold from the
launch memory (`W0` … `W6`). Followed here, buffer by buffer, for the buffers the next segment reads: a stretch by its
lines' functions, a region by the layer its write-backs leave in its result array (its operand arrays, and every buffer that is
none of its arrays, as entered). -/

variable (m : (ℓ : Loc nD τ sig) → Buf (Elt Ideal) ℓ) (ρ : Dev nD → PrngReg) (c : Dev nD)

/-! ### After the first stretch -/

theorem W1_v33 : W1 m ρ c (Proc.devRef .tc main_v33) = (agg64 (scale64 (embed (m ((c.tc : Thread nD τ).loc main_arg0)) (m ((c.tc : Thread nD τ).loc main_arg3))) (colOf (invSqrtDeg (m ((c.tc : Thread nD τ).loc main_arg1))))) (m ((c.tc : Thread nD τ).loc main_arg1)) (m ((c.tc : Thread nD τ).loc main_arg2))) := s0_v33 (W0 m ρ c)
theorem W1_v13 : W1 m ρ c (Proc.devRef .tc main_v13) = (colOf (invSqrtDeg (m ((c.tc : Thread nD τ).loc main_arg2)))) := s0_v13 (W0 m ρ c)
theorem W1_v14 : W1 m ρ c (Proc.devRef .tc main_v14) = (colOf (invSqrtDeg (m ((c.tc : Thread nD τ).loc main_arg1)))) := s0_v14 (W0 m ρ c)
theorem W1_v34 : W1 m ρ c (Proc.devRef .tc main_v34) = rowOf96 (m ((c.tc : Thread nD τ).loc main_arg5)) := s0_v34 (W0 m ρ c)
theorem W1_arg1 : W1 m ρ c (Proc.devRef .tc main_arg1) = (m ((c.tc : Thread nD τ).loc main_arg1)) := s0_arg1 (W0 m ρ c)
theorem W1_arg2 : W1 m ρ c (Proc.devRef .tc main_arg2) = (m ((c.tc : Thread nD τ).loc main_arg2)) := s0_arg2 (W0 m ρ c)
theorem W1_arg4 : W1 m ρ c (Proc.devRef .tc main_arg4) = (m ((c.tc : Thread nD τ).loc main_arg4)) := s0_arg4 (W0 m ρ c)
theorem W1_arg6 : W1 m ρ c (Proc.devRef .tc main_arg6) = (m ((c.tc : Thread nD τ).loc main_arg6)) := s0_arg6 (W0 m ρ c)
theorem W1_arg7 : W1 m ρ c (Proc.devRef .tc main_arg7) = (m ((c.tc : Thread nD τ).loc main_arg7)) := s0_arg7 (W0 m ρ c)
theorem W1_arg8 : W1 m ρ c (Proc.devRef .tc main_arg8) = (m ((c.tc : Thread nD τ).loc main_arg8)) := s0_arg8 (W0 m ρ c)
theorem W1_arg9 : W1 m ρ c (Proc.devRef .tc main_arg9) = (m ((c.tc : Thread nD τ).loc main_arg9)) := s0_arg9 (W0 m ρ c)

/-! ### After region 0 -/

theorem W2_v35 : W2 m ρ c (Proc.devRef .tc main_v35) = (conv64 (agg64 (scale64 (embed (m ((c.tc : Thread nD τ).loc main_arg0)) (m ((c.tc : Thread nD τ).loc main_arg3))) (colOf (invSqrtDeg (m ((c.tc : Thread nD τ).loc main_arg1))))) (m ((c.tc : Thread nD τ).loc main_arg1)) (m ((c.tc : Thread nD τ).loc main_arg2))) (colOf (invSqrtDeg (m ((c.tc : Thread nD τ).loc main_arg2)))) (colOf (invSqrtDeg (m ((c.tc : Thread nD τ).loc main_arg1)))) (m ((c.tc : Thread nD τ).loc main_arg4)) (rowOf96 (m ((c.tc : Thread nD τ).loc main_arg5)))) := by
  refine ((W2_arr m ρ c 5).trans (region1 (V1 m ρ) c)).trans ?_
  show conv64 (W1 m ρ c (Proc.devRef .tc main_v33)) (W1 m ρ c (Proc.devRef .tc main_v13)) (W1 m ρ c (Proc.devRef .tc main_v14)) (W1 m ρ c (Proc.devRef .tc main_arg4)) (W1 m ρ c (Proc.devRef .tc main_v34)) = _
  rw [W1_v33, W1_v13, W1_v14, W1_arg4, W1_v34]
theorem W2_v13 : W2 m ρ c (Proc.devRef .tc main_v13) = (colOf (invSqrtDeg (m ((c.tc : Thread nD τ).loc main_arg2)))) := ((W2_arr m ρ c 1).trans (((dat0 (V1 m ρ) c).arrAt_in 1 rfl _).trans (A_eq0 (V1 m ρ) c 1))).trans (W1_v13 m ρ c)
theorem W2_v14 : W2 m ρ c (Proc.devRef .tc main_v14) = (colOf (invSqrtDeg (m ((c.tc : Thread nD τ).loc main_arg1)))) := ((W2_arr m ρ c 2).trans (((dat0 (V1 m ρ) c).arrAt_in 2 rfl _).trans (A_eq0 (V1 m ρ) c 2))).trans (W1_v14 m ρ c)
theorem W2_arg1 : W2 m ρ c (Proc.devRef .tc main_arg1) = (m ((c.tc : Thread nD τ).loc main_arg1)) := (W2_of_ne m ρ c main_arg1 (by decide)).trans (W1_arg1 m ρ c)
theorem W2_arg2 : W2 m ρ c (Proc.devRef .tc main_arg2) = (m ((c.tc : Thread nD τ).loc main_arg2)) := (W2_of_ne m ρ c main_arg2 (by decide)).trans (W1_arg2 m ρ c)
theorem W2_arg6 : W2 m ρ c (Proc.devRef .tc main_arg6) = (m ((c.tc : Thread nD τ).loc main_arg6)) := (W2_of_ne m ρ c main_arg6 (by decide)).trans (W1_arg6 m ρ c)
theorem W2_arg7 : W2 m ρ c (Proc.devRef .tc main_arg7) = (m ((c.tc : Thread nD τ).loc main_arg7)) := (W2_of_ne m ρ c main_arg7 (by decide)).trans (W1_arg7 m ρ c)
theorem W2_arg8 : W2 m ρ c (Proc.devRef .tc main_arg8) = (m ((c.tc : Thread nD τ).loc main_arg8)) := (W2_of_ne m ρ c main_arg8 (by decide)).trans (W1_arg8 m ρ c)
theorem W2_arg9 : W2 m ρ c (Proc.devRef .tc main_arg9) = (m ((c.tc : Thread nD τ).loc main_arg9)) := (W2_of_ne m ρ c main_arg9 (by decide)).trans (W1_arg9 m ρ c)

/-! ### After the second stretch -/

theorem W3_v45 : W3 m ρ c (Proc.devRef .tc main_v45) = (agg96 (conv64 (agg64 (scale64 (embed (m ((c.tc : Thread nD τ).loc main_arg0)) (m ((c.tc : Thread nD τ).loc main_arg3))) (colOf (invSqrtDeg (m ((c.tc : Thread nD τ).loc main_arg1))))) (m ((c.tc : Thread nD τ).loc main_arg1)) (m ((c.tc : Thread nD τ).loc main_arg2))) (colOf (invSqrtDeg (m ((c.tc : Thread nD τ).loc main_arg2)))) (colOf (invSqrtDeg (m ((c.tc : Thread nD τ).loc main_arg1)))) (m ((c.tc : Thread nD τ).loc main_arg4)) (rowOf96 (m ((c.tc : Thread nD τ).loc main_arg5)))) (m ((c.tc : Thread nD τ).loc main_arg1)) (m ((c.tc : Thread nD τ).loc main_arg2))) := by
  refine (s1_v45 (W2 m ρ c)).trans ?_
  rw [W2_v35, W2_arg1, W2_arg2]
theorem W3_v46 : W3 m ρ c (Proc.devRef .tc main_v46) = rowOf96 (m ((c.tc : Thread nD τ).loc main_arg7)) := by
  refine (s1_v46 (W2 m ρ c)).trans ?_
  rw [W2_arg7]
theorem W3_v13 : W3 m ρ c (Proc.devRef .tc main_v13) = (colOf (invSqrtDeg (m ((c.tc : Thread nD τ).loc main_arg2)))) := (s1_v13 (W2 m ρ c)).trans (W2_v13 m ρ c)
theorem W3_v14 : W3 m ρ c (Proc.devRef .tc main_v14) = (colOf (invSqrtDeg (m ((c.tc : Thread nD τ).loc main_arg1)))) := (s1_v14 (W2 m ρ c)).trans (W2_v14 m ρ c)
theorem W3_arg1 : W3 m ρ c (Proc.devRef .tc main_arg1) = (m ((c.tc : Thread nD τ).loc main_arg1)) := (s1_arg1 (W2 m ρ c)).trans (W2_arg1 m ρ c)
theorem W3_arg2 : W3 m ρ c (Proc.devRef .tc main_arg2) = (m ((c.tc : Thread nD τ).loc main_arg2)) := (s1_arg2 (W2 m ρ c)).trans (W2_arg2 m ρ c)
theorem W3_arg6 : W3 m ρ c (Proc.devRef .tc main_arg6) = (m ((c.tc : Thread nD τ).loc main_arg6)) := (s1_arg6 (W2 m ρ c)).trans (W2_arg6 m ρ c)
theorem W3_arg8 : W3 m ρ c (Proc.devRef .tc main_arg8) = (m ((c.tc : Thread nD τ).loc main_arg8)) := (s1_arg8 (W2 m ρ c)).trans (W2_arg8 m ρ c)
theorem W3_arg9 : W3 m ρ c (Proc.devRef .tc main_arg9) = (m ((c.tc : Thread nD τ).loc main_arg9)) := (s1_arg9 (W2 m ρ c)).trans (W2_arg9 m ρ c)

/-! ### After region 1 -/

theorem W4_v47 : W4 m ρ c (Proc.devRef .tc main_v47) = (conv96 (agg96 (conv64 (agg64 (scale64 (embed (m ((c.tc : Thread nD τ).loc main_arg0)) (m ((c.tc : Thread nD τ).loc main_arg3))) (colOf (invSqrtDeg (m ((c.tc : Thread nD τ).loc main_arg1))))) (m ((c.tc : Thread nD τ).loc main_arg1)) (m ((c.tc : Thread nD τ).loc main_arg2))) (colOf (invSqrtDeg (m ((c.tc : Thread nD τ).loc main_arg2)))) (colOf (invSqrtDeg (m ((c.tc : Thread nD τ).loc main_arg1)))) (m ((c.tc : Thread nD τ).loc main_arg4)) (rowOf96 (m ((c.tc : Thread nD τ).loc main_arg5)))) (m ((c.tc : Thread nD τ).loc main_arg1)) (m ((c.tc : Thread nD τ).loc main_arg2))) (colOf (invSqrtDeg (m ((c.tc : Thread nD τ).loc main_arg2)))) (colOf (invSqrtDeg (m ((c.tc : Thread nD τ).loc main_arg1)))) (m ((c.tc : Thread nD τ).loc main_arg6)) (rowOf96 (m ((c.tc : Thread nD τ).loc main_arg7)))) := by
  refine ((W4_arr m ρ c 5).trans (region2 (V3 m ρ) c)).trans ?_
  show conv96 (W3 m ρ c (Proc.devRef .tc main_v45)) (W3 m ρ c (Proc.devRef .tc main_v13)) (W3 m ρ c (Proc.devRef .tc main_v14)) (W3 m ρ c (Proc.devRef .tc main_arg6)) (W3 m ρ c (Proc.devRef .tc main_v46)) = _
  rw [W3_v45, W3_v13, W3_v14, W3_arg6, W3_v46]
theorem W4_v13 : W4 m ρ c (Proc.devRef .tc main_v13) = (colOf (invSqrtDeg (m ((c.tc : Thread nD τ).loc main_arg2)))) := ((W4_arr m ρ c 1).trans (((dat1 (V3 m ρ) c).arrAt_in 1 rfl _).trans (A_eq1 (V3 m ρ) c 1))).trans (W3_v13 m ρ c)
theorem W4_arg1 : W4 m ρ c (Proc.devRef .tc main_arg1) = (m ((c.tc : Thread nD τ).loc main_arg1)) := (W4_of_ne m ρ c main_arg1 (by decide)).trans (W3_arg1 m ρ c)
theorem W4_arg2 : W4 m ρ c (Proc.devRef .tc main_arg2) = (m ((c.tc : Thread nD τ).loc main_arg2)) := (W4_of_ne m ρ c main_arg2 (by decide)).trans (W3_arg2 m ρ c)
theorem W4_arg8 : W4 m ρ c (Proc.devRef .tc main_arg8) = (m ((c.tc : Thread nD τ).loc main_arg8)) := (W4_of_ne m ρ c main_arg8 (by decide)).trans (W3_arg8 m ρ c)
theorem W4_arg9 : W4 m ρ c (Proc.devRef .tc main_arg9) = (m ((c.tc : Thread nD τ).loc main_arg9)) := (W4_of_ne m ρ c main_arg9 (by decide)).trans (W3_arg9 m ρ c)

/-! ### After the third stretch -/

theorem W5_v57 : W5 m ρ c (Proc.devRef .tc main_v57) = (agg96 (conv96 (agg96 (conv64 (agg64 (scale64 (embed (m ((c.tc : Thread nD τ).loc main_arg0)) (m ((c.tc : Thread nD τ).loc main_arg3))) (colOf (invSqrtDeg (m ((c.tc : Thread nD τ).loc main_arg1))))) (m ((c.tc : Thread nD τ).loc main_arg1)) (m ((c.tc : Thread nD τ).loc main_arg2))) (colOf (invSqrtDeg (m ((c.tc : Thread nD τ).loc main_arg2)))) (colOf (invSqrtDeg (m ((c.tc : Thread nD τ).loc main_arg1)))) (m ((c.tc : Thread nD τ).loc main_arg4)) (rowOf96 (m ((c.tc : Thread nD τ).loc main_arg5)))) (m ((c.tc : Thread nD τ).loc main_arg1)) (m ((c.tc : Thread nD τ).loc main_arg2))) (colOf (invSqrtDeg (m ((c.tc : Thread nD τ).loc main_arg2)))) (colOf (invSqrtDeg (m ((c.tc : Thread nD τ).loc main_arg1)))) (m ((c.tc : Thread nD τ).loc main_arg6)) (rowOf96 (m ((c.tc : Thread nD τ).loc main_arg7)))) (m ((c.tc : Thread nD τ).loc main_arg1)) (m ((c.tc : Thread nD τ).loc main_arg2))) := by
  refine (s2_v57 (W4 m ρ c)).trans ?_
  rw [W4_v47, W4_arg1, W4_arg2]
theorem W5_v58 : W5 m ρ c (Proc.devRef .tc main_v58) = rowOf50 (m ((c.tc : Thread nD τ).loc main_arg9)) := by
  refine (s2_v58 (W4 m ρ c)).trans ?_
  rw [W4_arg9]
theorem W5_v13 : W5 m ρ c (Proc.devRef .tc main_v13) = (colOf (invSqrtDeg (m ((c.tc : Thread nD τ).loc main_arg2)))) := (s2_v13 (W4 m ρ c)).trans (W4_v13 m ρ c)
theorem W5_arg8 : W5 m ρ c (Proc.devRef .tc main_arg8) = (m ((c.tc : Thread nD τ).loc main_arg8)) := (s2_arg8 (W4 m ρ c)).trans (W4_arg8 m ρ c)

/-! ### After region 2: the result -/

/-- THE KERNEL PROGRAM'S RESULT is the network of its arguments. -/
theorem W6_v59 : W6 m ρ c (Proc.devRef .tc main_v59) = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine ((W6_arr m ρ c 5).trans (region3 (V5 m ρ) c)).trans ?_
  show lin50 (W5 m ρ c (Proc.devRef .tc main_v57)) (W5 m ρ c (Proc.devRef .tc main_v13)) (W5 m ρ c (Proc.devRef .tc main_arg8)) (W5 m ρ c (Proc.devRef .tc main_v58)) = _
  rw [W5_v57, W5_v13, W5_arg8, W5_v58]
  rfl

end Cert.GCN

end
-- ==== Proof.RefValue.lean ====
/-
  The reference program computes the network: its run's result term, the host operations composed, is the function
  `gcn` of the argument arrays, operation for operation.
-/
import proofs.«173833_j3513283248845_1_alg».proof.Proof.Spec
import proofs.«173833_j3513283248845_1_alg».proof.Proof.Gen.ReferenceIdeal.Run

noncomputable section

namespace Cert.GCN

open Idealize.ShloMosaic Idealize.ShloMosaic.TcCoe Idealize.SL.Sem Cert.ReferenceIdeal Cert.ReferenceIdeal.Gen

set_option maxRecDepth 8192 in
/-- The reference's result is the network of its arguments. -/
theorem ref_eq (m : (ℓ : Loc nD τ sig) → Buf (Elt Ideal) ℓ) (c : Dev nD) :
    Cert.ReferenceIdeal.Value.res_main_v81 (F := Ideal) m c = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v81 gcn lin50 agg96 conv96 agg64 conv64 scale64 embed colOf rowOf96 rowOf50 invSqrtDeg wrapIdx
  rfl

end Cert.GCN

end
-- ==== Proof.lean ====
/-
  A three-layer graph convolution over 50000 nodes and 800000 edges: the kernel program against its jnp reference, at the
  extended reals.

  Both programs compute the degree scalings `outN`, `inN` (scatter-adds of ones, cut below at 1, inverse square roots), look
  up the node embeddings, and run three layers `H ↦ act ((Σ over incoming edges of (H · outN) at the source) · inN) W + b)`, the
  edge sum a host gather followed by a host scatter-add in both. They differ in where the dense half of a layer runs and in
  where it is cut. The reference runs it as host operations: scale the rows by `inN`, one matrix product, add the bias, cut
  below at zero, and — as the first step of the NEXT layer — scale the rows by `outN`. The kernel program runs it as a
  pipelined region over blocks of 2000 nodes, the product into a zero accumulator with its operands' format narrowed on the
  way in (the identity at the extended reals), and scales by `outN` inside the same region; it also makes its columns and
  rows by a reshape where the reference broadcasts along a new unit axis. None of this changes a value: entry `(n, j)` of a
  layer is, in both, the same sum over `k` of the same products in the same order, so no law of the extended reals beyond
  reading the operations at an index is used, and the finiteness of the inputs is never opened.

  The modules: `Spec` states the network as one function `gcn` of the arguments in the host operations' own words;
  `RefValue` shows the reference's result term is `gcn`; `Layer1` … `Layer3` read a region's stored block and the host layer
  at an entry, `Region1` … `Region3` pass from the blocks to the array; `Columns` identifies the reshapes with the broadcasts;
  `Stretches` reads the three stretches of host operations; `Boundaries` follows the program's buffers from the launch to the
  result; `KernelRun` is the program's run with its result named.
-/
import proofs.«173833_j3513283248845_1_alg».proof.Defs
import proofs.«173833_j3513283248845_1_alg».proof.Proof.Gen.Kernel
import proofs.«173833_j3513283248845_1_alg».proof.Proof.Gen.Kernel.Frame
import proofs.«173833_j3513283248845_1_alg».proof.Proof.Gen.KernelIdeal
import proofs.«173833_j3513283248845_1_alg».proof.Proof.Gen.KernelIdeal.Frame
import proofs.«173833_j3513283248845_1_alg».proof.Proof.Gen.ReferenceIdeal
import proofs.«173833_j3513283248845_1_alg».proof.Proof.Gen.ReferenceIdeal.Run
import proofs.«173833_j3513283248845_1_alg».proof.Proof.Gen.Pre_finite_inputs
import proofs.«173833_j3513283248845_1_alg».proof.Proof.KernelRun
import proofs.«173833_j3513283248845_1_alg».proof.Proof.Boundaries
import proofs.«173833_j3513283248845_1_alg».proof.Proof.RefValue

noncomputable section

namespace Cert.Proof

open Idealize.ShloMosaic Idealize.ShloMosaic.TcCoe Idealize.SL.Sem

/-- The kernel program as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network `gcn` of the (agreeing) arguments in their result. -/
theorem algebraic : Cert.algebraic_KernelIdeal_ReferenceIdeal := by
  intro m ρ m' ρ' _ hagree
  refine ⟨fun c => Cert.GCN.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c => ⟨(h c).1.trans (Cert.GCN.W6_v59 m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.GCN.ref_eq]
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
